-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x512 : Shape := ⟨2, ![1, 512]⟩
abbrev S40000x512 : Shape := ⟨2, ![40000, 512]⟩
abbrev S2000x128 : Shape := ⟨2, ![2000, 128]⟩
abbrev S2000x512 : Shape := ⟨2, ![2000, 512]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S4000x128 : Shape := ⟨2, ![4000, 128]⟩
abbrev S1x128 : Shape := ⟨2, ![1, 128]⟩

abbrev nBuf : Space → Nat
  | .hbm => 59
  | .vmem => 14
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128x512, .f32⟩
  | .hbm, ⟨12, _⟩ => ⟨S512, .f32⟩
  | .hbm, ⟨13, _⟩ => ⟨S1x512, .f32⟩
  | .hbm, ⟨14, _⟩ => ⟨S40000x512, .f32⟩
  | .hbm, ⟨15, _⟩ => ⟨S40000x128, .f32⟩
  | .hbm, ⟨16, _⟩ => ⟨S40000x128, .f32⟩
  | .hbm, ⟨17, _⟩ => ⟨S40000x128, .f32⟩
  | .hbm, ⟨18, _⟩ => ⟨S40000x128, .f32⟩
  | .hbm, ⟨19, _⟩ => ⟨S1x640000, .i32⟩
  | .hbm, ⟨20, _⟩ => ⟨S640000, .i32⟩
  | .hbm, ⟨21, _⟩ => ⟨S1x640000, .i32⟩
  | .hbm, ⟨22, _⟩ => ⟨S640000, .i32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S640000x128, .f32⟩
  | .hbm, ⟨51, _⟩ => ⟨S_, .f32⟩
  | .hbm, ⟨52, _⟩ => ⟨S40000x128, .f32⟩
  | .hbm, ⟨53, _⟩ => ⟨S640000x1, .i32⟩
  | .hbm, ⟨54, _⟩ => ⟨S40000x128, .f32⟩
  | .hbm, ⟨55, _⟩ => ⟨S40000x128, .f32⟩
  | .hbm, ⟨56, _⟩ => ⟨S1x128, .f32⟩
  | .hbm, ⟨57, _⟩ => ⟨S40000x128, .f32⟩
  | .hbm, ⟨58, _⟩ => ⟨S40000x128, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S40000x512_S40000x128_0_0 : S40000x512.Slices ![0, 0] S40000x128
  slices_S40000x512_S40000x128_0_128 : S40000x512.Slices ![0, 128] S40000x128
  slices_S40000x512_S40000x128_0_256 : S40000x512.Slices ![0, 256] S40000x128
  slices_S40000x512_S40000x128_0_384 : S40000x512.Slices ![0, 384] S40000x128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  dot_S2000x128_S128x512_S2000x512_1_0_0_1_n_n_wf : DotDims.WF S2000x128 S128x512 S2000x512 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S40000x512.size a
  hwx0_3 : ∀ i : grid0.Coords, EltTy.bits .f32 = 32 ∨ (Rect.block (s := S40000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S640000x128.size a
  hwx1_0 : ∀ i : grid1.Coords, EltTy.bits .f32 = 32 ∨ (Rect.block (s := S640000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S640000x128.size a
  hwx1_1 : ∀ i : grid1.Coords, EltTy.bits .f32 = 32 ∨ (Rect.block (s := S640000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S640000x128.size a
  hwx1_2 : ∀ i : grid1.Coords, EltTy.bits .f32 = 32 ∨ (Rect.block (s := S640000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S640000x128.size a
  hwx1_3 : ∀ i : grid1.Coords, EltTy.bits .f32 = 32 ∨ (Rect.block (s := S640000x128) S4000x128.size (cc1_transform_3 i) (hinb1_3 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩

abbrev nBuf : Space → Nat
  | .hbm => 76
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S40000x128, .f32⟩
  | .hbm, ⟨12, _⟩ => ⟨S1x128, .f32⟩
  | .hbm, ⟨13, _⟩ => ⟨S40000x128, .f32⟩
  | .hbm, ⟨14, _⟩ => ⟨S40000x128, .f32⟩
  | .hbm, ⟨15, _⟩ => ⟨S40000x128, .f32⟩
  | .hbm, ⟨16, _⟩ => ⟨S1x128, .f32⟩
  | .hbm, ⟨17, _⟩ => ⟨S40000x128, .f32⟩
  | .hbm, ⟨18, _⟩ => ⟨S40000x128, .f32⟩
  | .hbm, ⟨19, _⟩ => ⟨S40000x128, .f32⟩
  | .hbm, ⟨20, _⟩ => ⟨S1x128, .f32⟩
  | .hbm, ⟨21, _⟩ => ⟨S40000x128, .f32⟩
  | .hbm, ⟨22, _⟩ => ⟨S40000x128, .f32⟩
  | .hbm, ⟨23, _⟩ => ⟨S1x640000, .i32⟩
  | .hbm, ⟨24, _⟩ => ⟨S640000, .i32⟩
  | .hbm, ⟨25, _⟩ => ⟨S1x640000, .i32⟩
  | .hbm, ⟨26, _⟩ => ⟨S640000, .i32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S640000x128, .f32⟩
  | .hbm, ⟨46, _⟩ => ⟨S640000x128, .f32⟩
  | .hbm, ⟨47, _⟩ => ⟨S640000x128, .f32⟩
  | .hbm, ⟨48, _⟩ => ⟨S_, .f32⟩
  | .hbm, ⟨49, _⟩ => ⟨S640000x128, .f32⟩
  | .hbm, ⟨50, _⟩ => ⟨S640000x128, .f32⟩
  | .hbm, ⟨51, _⟩ => ⟨S_, .f32⟩
  | .hbm, ⟨52, _⟩ => ⟨S640000x128, .f32⟩
  | .hbm, ⟨53, _⟩ => ⟨S640000x128, .f32⟩
  | .hbm, ⟨54, _⟩ => ⟨S_, .i32⟩
  | .hbm, ⟨55, _⟩ => ⟨S640000, .i32⟩
  | .hbm, ⟨56, _⟩ => ⟨S640000, .i1⟩
  | .hbm, ⟨57, _⟩ => ⟨S_, .i32⟩
  | .hbm, ⟨58, _⟩ => ⟨S640000, .i32⟩
  | .hbm, ⟨59, _⟩ => ⟨S640000, .i32⟩
  | .hbm, ⟨60, _⟩ => ⟨S640000, .i32⟩
  | .hbm, ⟨61, _⟩ => ⟨S640000x1, .i32⟩
  | .hbm, ⟨62, _⟩ => ⟨S640000x128, .f32⟩
  | .hbm, ⟨63, _⟩ => ⟨S640000x128, .f32⟩
  | .hbm, ⟨64, _⟩ => ⟨S_, .f32⟩
  | .hbm, ⟨65, _⟩ => ⟨S40000x128, .f32⟩
  | .hbm, ⟨66, _⟩ => ⟨S640000x1, .i32⟩
  | .hbm, ⟨67, _⟩ => ⟨S40000x128, .f32⟩
  | .hbm, ⟨68, _⟩ => ⟨S40000x128, .f32⟩
  | .hbm, ⟨69, _⟩ => ⟨S1x128, .f32⟩
  | .hbm, ⟨70, _⟩ => ⟨S40000x128, .f32⟩
  | .hbm, ⟨71, _⟩ => ⟨S40000x128, .f32⟩
  | .hbm, ⟨72, _⟩ => ⟨S40000x128, .f32⟩
  | .hbm, ⟨73, _⟩ => ⟨S1x128, .f32⟩
  | .hbm, ⟨74, _⟩ => ⟨S40000x128, .f32⟩
  | .hbm, ⟨75, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.StagesBits.lean ====
/-
  The two kernel stages of the program, each at the buffer contents `V` it is entered with, at any float instance.

  Stage one works on blocks of 2000 rows: it loads a block of the node features (2000 × 128), the whole
  128 × 512 matrix made of the four weight matrices side by side, and the 1 × 512 row made of the four biases,
  and stores the 2000 × 512 block "features times matrix, plus the bias row" (the skeleton's payload `k0_pay1`).
  Stage two works on blocks of 4000 edges: it loads a block of each of the three gathered arrays (4000 × 128)
  and stores "logistic of the sum of the first two, times the third" (the payload `k1_pay1`).

  For each stage: what a window's block is at a grid point, that an input's staging buffer holds that block when the
  body starts, what the body leaves in the output's staging buffer (one store covering the whole buffer), the body's
  run as a Hoare triple, and the proof data and body obligation the pipeline's launch theorem asks for.
-/
import proofs.«118037_j13073880449502_1_alg».proof.Proof.Gen.Kernel.Launch
import proofs.«118037_j13073880449502_1_alg».proof.Proof.Gen.Kernel.Skeleton
import proofs.«118037_j13073880449502_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a stage is entered with
variable (V : (c : Dev nD) → (b : Ref sig .tc) → Buf (Elt F) ((c : Thread nD τ).loc b))

/-! # Stage one: the projection, on blocks of 2000 rows -/

/-- Window `w`'s block at grid point `t`, read off the window's array as the stage finds it. -/
def blockP (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- When the body starts at point `t`, the staging buffer of the feature window holds the block of rows
    `2000 t … 2000 t + 1999`, whether it was fetched at `t` or earlier. -/
theorem stagedP_0 {c : Dev nD} (dat : Dat τ (Elt F) Unit ℕ (UR sig nD τ) ℕ cfg0 c) (hA : dat.A 0 = V c (Pipeline.arrRef spec0 0))
    (hafter : ∀ t, dat.after 0 t = blockP V c 0 t) (t : Fin cfg0.N) (d) : dat.before 0 t d = blockP V c 0 t :=
  (dat.before_in_eq_fetched 0 rfl (fun _ => rfl) (fun _ _ _ => rfl) (fun t => by rw [hafter]; unfold Dat.blockOf blockP; rw [hA]; try rfl) t d).trans
    (by unfold Dat.fetched Dat.blockOf blockP; rw [hA]; try rfl)
/-- The same for the matrix window: fetched once, its one block is the whole matrix at every point. -/
theorem stagedP_1 {c : Dev nD} (dat : Dat τ (Elt F) Unit ℕ (UR sig nD τ) ℕ cfg0 c) (hA : dat.A 1 = V c (Pipeline.arrRef spec0 1))
    (hafter : ∀ t, dat.after 1 t = blockP V c 1 t) (t : Fin cfg0.N) (d) : dat.before 1 t d = blockP V c 1 t :=
  (dat.before_in_eq_fetched 1 rfl (fun _ => rfl) (fun _ _ _ => rfl) (fun t => by rw [hafter]; unfold Dat.blockOf blockP; rw [hA]; try rfl) t d).trans
    (by unfold Dat.fetched Dat.blockOf blockP; rw [hA]; try rfl)
/-- The same for the bias-row window. -/
theorem stagedP_2 {c : Dev nD} (dat : Dat τ (Elt F) Unit ℕ (UR sig nD τ) ℕ cfg0 c) (hA : dat.A 2 = V c (Pipeline.arrRef spec0 2))
    (hafter : ∀ t, dat.after 2 t = blockP V c 2 t) (t : Fin cfg0.N) (d) : dat.before 2 t d = blockP V c 2 t :=
  (dat.before_in_eq_fetched 2 rfl (fun _ => rfl) (fun _ _ _ => rfl) (fun t => by rw [hafter]; unfold Dat.blockOf blockP; rw [hA]; try rfl) t d).trans
    (by unfold Dat.fetched Dat.blockOf blockP; rw [hA]; try rfl)

/-- The body's four accesses, each the whole of its staging buffer. -/
abbrev rX : Rect S2000x128 := Rect.unit (s := S2000x128) ![0, 0] S2000x128.size Facts₀.inb_S2000x128_S2000x128_0_0
abbrev rW : Rect S128x512 := Rect.unit (s := S128x512) ![0, 0] S128x512.size Facts₀.inb_S128x512_S128x512_0_0
abbrev rB : Rect S1x512 := Rect.unit (s := S1x512) ![0, 0] S1x512.size Facts₀.inb_S1x512_S1x512_0_0
abbrev rP : Rect S2000x512 := Rect.unit (s := S2000x512) ![0, 0] S2000x512.size Facts₀.inb_S2000x512_S2000x512_0_0

/-- What the body leaves in the output's staging buffer, from the three input blocks: its one store. -/
def projBlock (x : Vec F S2000x128 .f32) (w : Vec F S128x512 .f32) (b : Vec F S1x512 .f32) : Vec F S2000x512 .f32 :=
  View.canon [⟨rP, k0_pay1 (View.ld x rX) (View.ld w rW) (View.ld b rB)⟩]

/-- That store covers the buffer. -/
theorem projCover (p0 : Vec F S2000x512 .f32) (y : S2000x512.Idx) :
    ∃ pc ∈ ([⟨rP, p0⟩] : List (View.Piece (Elt F) S2000x512 .f32)), y ∈ pc.1.set :=
  View.cover_of_tiled [⟨rP, p0⟩] S2000x512.size (by rfl) y

set_option maxHeartbeats 1000000 in
/-- The projection body on whole staging buffers — the inputs at `x`, `w`, `b`, the output at anything — runs to its
    end with the inputs as they were and the output at `projBlock x w b`. -/
theorem projBody (c : Dev nD) (E : Set ℕ) (i : grid0.Coords) (arg1 : Memref sig .tc .vmem S2000x128 .f32) (harg1 : arg1.IsWhole)
    (arg2 : Memref sig .tc .vmem S128x512 .f32) (harg2 : arg2.IsWhole) (arg3 : Memref sig .tc .vmem S1x512 .f32) (harg3 : arg3.IsWhole)
    (arg4 : Memref sig .tc .vmem S2000x512 .f32) (harg4 : arg4.IsWhole)
    (x : Vec F S2000x128 .f32) (w : Vec F S128x512 .f32) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projBlock x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-- Stage one's proof data on core `c`: the arrays as the stage finds them; after the body at point `t` each input's
    buffer still at its block and the output's at `projBlock` of the three input blocks; nothing owed. -/
def datP (c : Dev nD) : Dat τ (Elt F) Unit ℕ (UR sig nD τ) ℕ cfg0 c where
  A w := V c (Pipeline.arrRef spec0 w)
  after w t := match w with
    | ⟨0, _⟩ => blockP V c 0 t
    | ⟨1, _⟩ => blockP V c 1 t
    | ⟨2, _⟩ => blockP V c 2 t
    | ⟨3, _⟩ => projBlock (blockP V c 0 t) (blockP V c 1 t) (blockP V c 2 t)
  Φ _ := Pipeline.ΦA spec0 c
  q _ := fullShare
  owed _ := 0

theorem datP_A (c : Dev nD) (w : Fin cfg0.W) : (datP V c).A w = V c (Pipeline.arrRef spec0 w) := by
  dsimp only [datP]
theorem datP_after0 (c : Dev nD) (t : Fin cfg0.N) : (datP V c).after 0 t = blockP V c 0 t := by dsimp only [datP]
theorem datP_after1 (c : Dev nD) (t : Fin cfg0.N) : (datP V c).after 1 t = blockP V c 1 t := by dsimp only [datP]
theorem datP_after2 (c : Dev nD) (t : Fin cfg0.N) : (datP V c).after 2 t = blockP V c 2 t := by dsimp only [datP]
theorem datP_after3 (c : Dev nD) (t : Fin cfg0.N) :
    (datP V c).after 3 t = projBlock (blockP V c 0 t) (blockP V c 1 t) (blockP V c 2 t) := by dsimp only [datP]

theorem datP_before0 (c : Dev nD) (t : Fin cfg0.N) (d) : (datP V c).before 0 t d = blockP V c 0 t :=
  stagedP_0 V (datP V c) (datP_A V c 0) (datP_after0 V c) t d
theorem datP_before1 (c : Dev nD) (t : Fin cfg0.N) (d) : (datP V c).before 1 t d = blockP V c 1 t :=
  stagedP_1 V (datP V c) (datP_A V c 1) (datP_after1 V c) t d
theorem datP_before2 (c : Dev nD) (t : Fin cfg0.N) (d) : (datP V c).before 2 t d = blockP V c 2 t :=
  stagedP_2 V (datP V c) (datP_A V c 2) (datP_after2 V c) t d

/-- What the pipeline calls the body with at point `t`, -/
def preP (c : Dev nD) (t : Fin cfg0.N) : sProp 𝕄 :=
  iprop((datP V c).Φ t.castSucc ∗ (datP V c).owesAt () t.castSucc
    ∗ (∃ d, owns (c : Thread nD τ) (st0_0 t) fullShare ((datP V c).before 0 t d))
    ∗ (∃ d, owns (c : Thread nD τ) (st0_1 t) fullShare ((datP V c).before 1 t d))
    ∗ (∃ d, owns (c : Thread nD τ) (st0_2 t) fullShare ((datP V c).before 2 t d))
    ∗ (∃ d, owns (c : Thread nD τ) (st0_3 t) fullShare ((datP V c).before 3 t d)))

/-- and what it gets back. -/
def postP (c : Dev nD) (t : Fin cfg0.N) : sProp 𝕄 :=
  iprop((datP V c).Φ t.succ ∗ (datP V c).owesAt () t.succ
    ∗ owns (c : Thread nD τ) (st0_0 t) fullShare ((datP V c).after 0 t)
    ∗ owns (c : Thread nD τ) (st0_1 t) fullShare ((datP V c).after 1 t)
    ∗ owns (c : Thread nD τ) (st0_2 t) fullShare ((datP V c).after 2 t)
    ∗ owns (c : Thread nD τ) (st0_3 t) fullShare ((datP V c).after 3 t))

/-- The body at any point: the inputs' buffers hold their blocks, so `projBody` applies. -/
theorem bodyP (c : Dev nD) (t : Fin cfg0.N) :
    preP V c t ⊢ wp frame (wpE (defs₀ (F := F)) Variants.none c none) Set.univ (bodyAt0 t) (fun _ => postP V c t) := by
  unfold preP postP bodyAt0
  simp only [datP_before0, datP_before1, datP_before2]
  rw [show (datP V c).Φ t.succ = (datP V c).Φ t.castSucc from rfl,
    show (datP V c).owesAt () t.succ = (datP V c).owesAt () t.castSucc from rfl,
    datP_after0, datP_after1, datP_after2, datP_after3]
  iintro ⟨HΦ, Ho, ⟨%d0, H0⟩, ⟨%d1, H1⟩, ⟨%d2, H2⟩, ⟨%d3, H3⟩⟩
  iapply (projBody c Set.univ (grid0.coords t) _ _ _ _ _ _ _ _ (blockP V c 0 t) (blockP V c 1 t) (blockP V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligationP (c : Dev nD) : BodyObligation (datP (F := F) V c) (defs₀ (F := F)) Variants.none () Set.univ := fun t => by
  rw [bigSep_W0, bigSep_W0]
  exact bodyP V c t

/-! # Stage two: the gated message, on blocks of 4000 edges -/

/-- Window `w`'s block at grid point `t`, read off the window's array as the stage finds it. -/
def blockG (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- When the body starts at point `t`, each input's staging buffer holds the block of edges `4000 t … 4000 t + 3999`. -/
theorem stagedG_0 {c : Dev nD} (dat : Dat τ (Elt F) Unit ℕ (UR sig nD τ) ℕ cfg1 c) (hA : dat.A 0 = V c (Pipeline.arrRef spec1 0))
    (hafter : ∀ t, dat.after 0 t = blockG V c 0 t) (t : Fin cfg1.N) (d) : dat.before 0 t d = blockG V c 0 t :=
  (dat.before_in_eq_fetched 0 rfl (fun _ => rfl) (fun _ _ _ => rfl) (fun t => by rw [hafter]; unfold Dat.blockOf blockG; rw [hA]; try rfl) t d).trans
    (by unfold Dat.fetched Dat.blockOf blockG; rw [hA]; try rfl)
theorem stagedG_1 {c : Dev nD} (dat : Dat τ (Elt F) Unit ℕ (UR sig nD τ) ℕ cfg1 c) (hA : dat.A 1 = V c (Pipeline.arrRef spec1 1))
    (hafter : ∀ t, dat.after 1 t = blockG V c 1 t) (t : Fin cfg1.N) (d) : dat.before 1 t d = blockG V c 1 t :=
  (dat.before_in_eq_fetched 1 rfl (fun _ => rfl) (fun _ _ _ => rfl) (fun t => by rw [hafter]; unfold Dat.blockOf blockG; rw [hA]; try rfl) t d).trans
    (by unfold Dat.fetched Dat.blockOf blockG; rw [hA]; try rfl)
theorem stagedG_2 {c : Dev nD} (dat : Dat τ (Elt F) Unit ℕ (UR sig nD τ) ℕ cfg1 c) (hA : dat.A 2 = V c (Pipeline.arrRef spec1 2))
    (hafter : ∀ t, dat.after 2 t = blockG V c 2 t) (t : Fin cfg1.N) (d) : dat.before 2 t d = blockG V c 2 t :=
  (dat.before_in_eq_fetched 2 rfl (fun _ => rfl) (fun _ _ _ => rfl) (fun t => by rw [hafter]; unfold Dat.blockOf blockG; rw [hA]; try rfl) t d).trans
    (by unfold Dat.fetched Dat.blockOf blockG; rw [hA]; try rfl)

/-- The body's accesses: every one the whole of a 4000 × 128 staging buffer. -/
abbrev rE : Rect S4000x128 := Rect.unit (s := S4000x128) ![0, 0] S4000x128.size Facts₀.inb_S4000x128_S4000x128_0_0

/-- What the body leaves in the output's staging buffer, from the three input blocks: its one store. -/
def gateBlock (kd : Vec F S4000x128 .f32) (qs : Vec F S4000x128 .f32) (vs : Vec F S4000x128 .f32) : Vec F S4000x128 .f32 :=
  View.canon [⟨rE, k1_pay1 (View.ld kd rE) (View.ld qs rE) (View.ld vs rE)⟩]

theorem gateCover (p0 : Vec F S4000x128 .f32) (y : S4000x128.Idx) :
    ∃ pc ∈ ([⟨rE, p0⟩] : List (View.Piece (Elt F) S4000x128 .f32)), y ∈ pc.1.set :=
  View.cover_of_tiled [⟨rE, p0⟩] S4000x128.size (by rfl) y

set_option maxHeartbeats 1000000 in
/-- The gate body on whole staging buffers — the inputs at `kd`, `qs`, `vs`, the output at anything — runs to its end
    with the inputs as they were and the output at `gateBlock kd qs vs`. -/
theorem gateBody (c : Dev nD) (E : Set ℕ) (i : grid1.Coords) (arg1 : Memref sig .tc .vmem S4000x128 .f32) (harg1 : arg1.IsWhole)
    (arg2 : Memref sig .tc .vmem S4000x128 .f32) (harg2 : arg2.IsWhole) (arg3 : Memref sig .tc .vmem S4000x128 .f32) (harg3 : arg3.IsWhole)
    (arg4 : Memref sig .tc .vmem S4000x128 .f32) (harg4 : arg4.IsWhole)
    (kd : Vec F S4000x128 .f32) (qs : Vec F S4000x128 .f32) (vs : Vec F S4000x128 .f32) (K : PUnit → sProp 𝕄) :
    iprop(owns (c : Thread nD τ) arg1 fullShare kd ∗ owns (c : Thread nD τ) arg2 fullShare qs ∗ owns (c : Thread nD τ) arg3 fullShare vs
        ∗ (∃ d, owns (c : Thread nD τ) arg4 fullShare d)
        ∗ (iprop(owns (c : Thread nD τ) arg1 fullShare kd ∗ owns (c : Thread nD τ) arg2 fullShare qs ∗ owns (c : Thread nD τ) arg3 fullShare vs
            ∗ owns (c : Thread nD τ) arg4 fullShare (gateBlock kd qs vs)) -∗ K ⟨⟩))
      ⊢ wp frame (wpE (defs₀ (F := F)) Variants.none c none) E (cc1__gate_kernel i arg1 harg1 arg2 harg2 arg3 harg3 arg4 harg4) K := by
  simp only [cc1__gate_kernel_eq_skeleton]; unfold cc1__gate_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (gateCover _)

/-- Stage two's proof data on core `c`. -/
def datG (c : Dev nD) : Dat τ (Elt F) Unit ℕ (UR sig nD τ) ℕ cfg1 c where
  A w := V c (Pipeline.arrRef spec1 w)
  after w t := match w with
    | ⟨0, _⟩ => blockG V c 0 t
    | ⟨1, _⟩ => blockG V c 1 t
    | ⟨2, _⟩ => blockG V c 2 t
    | ⟨3, _⟩ => gateBlock (blockG V c 0 t) (blockG V c 1 t) (blockG V c 2 t)
  Φ _ := Pipeline.ΦA spec1 c
  q _ := fullShare
  owed _ := 0

theorem datG_A (c : Dev nD) (w : Fin cfg1.W) : (datG V c).A w = V c (Pipeline.arrRef spec1 w) := by
  dsimp only [datG]
theorem datG_after0 (c : Dev nD) (t : Fin cfg1.N) : (datG V c).after 0 t = blockG V c 0 t := by dsimp only [datG]
theorem datG_after1 (c : Dev nD) (t : Fin cfg1.N) : (datG V c).after 1 t = blockG V c 1 t := by dsimp only [datG]
theorem datG_after2 (c : Dev nD) (t : Fin cfg1.N) : (datG V c).after 2 t = blockG V c 2 t := by dsimp only [datG]
theorem datG_after3 (c : Dev nD) (t : Fin cfg1.N) :
    (datG V c).after 3 t = gateBlock (blockG V c 0 t) (blockG V c 1 t) (blockG V c 2 t) := by dsimp only [datG]

theorem datG_before0 (c : Dev nD) (t : Fin cfg1.N) (d) : (datG V c).before 0 t d = blockG V c 0 t :=
  stagedG_0 V (datG V c) (datG_A V c 0) (datG_after0 V c) t d
theorem datG_before1 (c : Dev nD) (t : Fin cfg1.N) (d) : (datG V c).before 1 t d = blockG V c 1 t :=
  stagedG_1 V (datG V c) (datG_A V c 1) (datG_after1 V c) t d
theorem datG_before2 (c : Dev nD) (t : Fin cfg1.N) (d) : (datG V c).before 2 t d = blockG V c 2 t :=
  stagedG_2 V (datG V c) (datG_A V c 2) (datG_after2 V c) t d

def preG (c : Dev nD) (t : Fin cfg1.N) : sProp 𝕄 :=
  iprop((datG V c).Φ t.castSucc ∗ (datG V c).owesAt () t.castSucc
    ∗ (∃ d, owns (c : Thread nD τ) (st1_0 t) fullShare ((datG V c).before 0 t d))
    ∗ (∃ d, owns (c : Thread nD τ) (st1_1 t) fullShare ((datG V c).before 1 t d))
    ∗ (∃ d, owns (c : Thread nD τ) (st1_2 t) fullShare ((datG V c).before 2 t d))
    ∗ (∃ d, owns (c : Thread nD τ) (st1_3 t) fullShare ((datG V c).before 3 t d)))

def postG (c : Dev nD) (t : Fin cfg1.N) : sProp 𝕄 :=
  iprop((datG V c).Φ t.succ ∗ (datG V c).owesAt () t.succ
    ∗ owns (c : Thread nD τ) (st1_0 t) fullShare ((datG V c).after 0 t)
    ∗ owns (c : Thread nD τ) (st1_1 t) fullShare ((datG V c).after 1 t)
    ∗ owns (c : Thread nD τ) (st1_2 t) fullShare ((datG V c).after 2 t)
    ∗ owns (c : Thread nD τ) (st1_3 t) fullShare ((datG V c).after 3 t))

theorem bodyG (c : Dev nD) (t : Fin cfg1.N) :
    preG V c t ⊢ wp frame (wpE (defs₀ (F := F)) Variants.none c none) Set.univ (bodyAt1 t) (fun _ => postG V c t) := by
  unfold preG postG bodyAt1
  simp only [datG_before0, datG_before1, datG_before2]
  rw [show (datG V c).Φ t.succ = (datG V c).Φ t.castSucc from rfl,
    show (datG V c).owesAt () t.succ = (datG V c).owesAt () t.castSucc from rfl,
    datG_after0, datG_after1, datG_after2, datG_after3]
  iintro ⟨HΦ, Ho, ⟨%d0, H0⟩, ⟨%d1, H1⟩, ⟨%d2, H2⟩, ⟨%d3, H3⟩⟩
  iapply (gateBody c Set.univ (grid1.coords t) _ _ _ _ _ _ _ _ (blockG V c 0 t) (blockG V c 1 t) (blockG V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligationG (c : Dev nD) : BodyObligation (datG (F := F) V c) (defs₀ (F := F)) Variants.none () Set.univ := fun t => by
  rw [bigSep_W1, bigSep_W1]
  exact bodyG V c t

end Cert.Kernel.Stages

end
-- ==== Proof.RunBits.lean ====
/-
  The whole program's run, at any float instance: the launch memory, three stretches of host operations and the two
  kernel stages between them, followed buffer by buffer.

  `W0 … W5` are the contents of the device's buffers at the six boundaries: at launch; after the first host stretch
  (the two concatenations and the reshape of the bias row); after stage one (its output array at what the twenty
  write-backs leave, everything else untouched); after the second stretch (the four column slices, the index
  arithmetic, the three gathers); after stage two (its output array at what the 160 write-backs leave); after the last
  stretch (the scatter-add and the two additions). The theorem `run` says every weakly fair execution terminates,
  faults nowhere, and ends with every buffer that outlives the kernels at `W5`. The frame claim follows because no
  stretch writes an argument and no stage writes back into one.
-/
import proofs.«118037_j13073880449502_1_alg».proof.Proof.StagesBits
import proofs.«118037_j13073880449502_1_alg».proof.Proof.Gen.Kernel.Regions

set_option maxRecDepth 16384

noncomputable section

namespace Cert.Kernel.Run

open Cert.Kernel Cert.Kernel.Gen Cert.Kernel.Stages
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the six boundaries -/

/-- At launch. -/
abbrev W0 : Dev nD → Valuation τ sig (Elt F) := fun c b => m (c, b)
/-- After the first host stretch: stage one's entry. -/
abbrev W1 : Dev nD → Valuation τ sig (Elt F) := fun c => StableHlo.after hostOps0 (W0 m c)
/-- The same, read at the TensorCore's references. -/
abbrev E1 : (c : Dev nD) → (b : Ref sig .tc) → Buf (Elt F) ((c : Thread nD τ).loc b) := fun c b => W1 m c b
/-- After stage one: its four arrays at what the pipeline leaves, every other buffer as entered. -/
def W2 (c : Dev nD) : Valuation τ sig (Elt F) :=
  Pipeline.withArrays spec0 c (W1 m c) fun w => (datP (E1 m) c).arrAt w cfg0.N
theorem W2_arr (c : Dev nD) (w : Fin cfg0.W) :
    W2 m c (Proc.devRef .tc (Pipeline.arrRef spec0 w)) = (datP (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem arrP_final (c : Dev nD) (w : Fin cfg0.W) : (datP (E1 m) c).arrAt w cfg0.N = E2 m c (Pipeline.arrRef spec0 w) :=
  (W2_arr m c w).symm
theorem restP_kept (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch: stage two's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After stage two. -/
def W4 (c : Dev nD) : Valuation τ sig (Elt F) :=
  Pipeline.withArrays spec1 c (W3 m c) fun w => (datG (E3 m) c).arrAt w cfg1.N
theorem W4_arr (c : Dev nD) (w : Fin cfg1.W) :
    W4 m c (Proc.devRef .tc (Pipeline.arrRef spec1 w)) = (datG (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem arrG_final (c : Dev nD) (w : Fin cfg1.W) : (datG (E3 m) c).arrAt w cfg1.N = E4 m c (Pipeline.arrRef spec1 w) :=
  (W4_arr m c w).symm
theorem restG_kept (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the last host stretch: the end. -/
abbrev W5 : Dev nD → Valuation τ sig (Elt F) := fun c => StableHlo.after hostOps2 (W4 m c)

/-! ## A buffer no stretch writes and no stage has a window on ends as launched -/

theorem W5_untouched (c : Dev nD) (r : Ref sig .tc) (h0 : r ∉ hostOps0_W) (h1 : r ∉ hostOps1_W) (h2 : r ∉ hostOps2_W)
    (hp : ∀ w, Pipeline.arrRef spec0 w ≠ r) (hg : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hg
    _ = W2 m c (Proc.devRef .tc r) := StableHlo.after_of_writes_sub hostOps1 _ hostOps1_writes h1
    _ = W1 m c (Proc.devRef .tc r) := W2_of_ne m c r hp
    _ = W0 m c (Proc.devRef .tc r) := StableHlo.after_of_writes_sub hostOps0 _ hostOps0_writes h0
    _ = m ((c : Thread nD τ).loc r) := rfl

/-- The node features are stage one's first window, an input: the pipeline leaves an input's array as it found it. -/
theorem W5_features (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((datP (E1 m) c).arrAt_in 0 rfl _).trans (datP_A (E1 m) c 0))
    _ = W0 m c (Proc.devRef .tc main_arg0) := StableHlo.after_of_writes_sub hostOps0 _ hostOps0_writes (by decide)
    _ = m ((c : Thread nD τ).loc main_arg0) := rfl

/-! ## The proof data, the thread state, the items -/

/-- Each stage's proof data at its entry contents. -/
def proofData : (p : Fin 2) → (c : Dev nD) → Dat τ (Elt F) Unit ℕ (UR sig nD τ) ℕ (Pipeline.pin (pcfgs (F := F)) adm p) c
  | ⟨0, _⟩ => fun c => datP (E1 m) c
  | ⟨1, _⟩ => fun c => datG (E3 m) c
abbrev noVariants : Variants := Variants.none
abbrev noPairs : GSem nD τ sig → Finset Unit := fun _ => ∅
abbrev noLevel : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
/-- A host stretch from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without what is owed. -/
abbrev Last (c : Dev nD) : sProp 𝕄 := iprop(StableHlo.held (c : Thread nD τ) (Pipeline.ucRefs τ sig) (W5 m c) ∗ ∃ r, prngReg c r)

set_option backward.isDefEq.respectTransparency.types false in
/-- Stage one as an item: entered with every lasting buffer at `W1`, left with them at `W2`. -/
def regionP : Pipeline.RegionSeg (pcfgs (F := F)) adm (proofData m) () defs₀ noVariants noPairs noLevel 0 where
  win := launch0.win.to₀
  block_pos := launch0.block_pos
  stage_whole := launch0.stage_whole
  K := PEmpty
  osem k := k.elim
  ho := Pipeline.OwnSemFacts.none _
  hbody c := (obligationP (E1 m) c).loose
  hwaits := Pipeline.hwaits_of_owed_zero _ _ _ _ noPairs noLevel 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (proofData m) launch0.win launch0.arr_whole c
      ((proofData m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (proofData m 0 c).Φ 0 = Pipeline.ΦA spec0 c from rfl]; unfold Pipeline.ΦA
    iintro ⟨Hp, -, Hr⟩
    isplitl [Hr]; · iexact Hr
    iexact Hp
  hout c := by
    rw [Pipeline.ownSems0_none, show (proofData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (proofData m) ((proofData m 0 c).share_full fun _ => rfl)
      (E1 m c) (E2 m c) ((proofData m 0 c).arrAt · cfg0.N) (arrP_final m c) (restP_kept m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage two as an item: entered with every lasting buffer at `W3`, left with them at `W4`. -/
def regionG : Pipeline.RegionSeg (pcfgs (F := F)) adm (proofData m) () defs₀ noVariants noPairs noLevel 1 where
  win := launch1.win.to₀
  block_pos := launch1.block_pos
  stage_whole := launch1.stage_whole
  K := PEmpty
  osem k := k.elim
  ho := Pipeline.OwnSemFacts.none _
  hbody c := (obligationG (E3 m) c).loose
  hwaits := Pipeline.hwaits_of_owed_zero _ _ _ _ noPairs noLevel 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (proofData m) launch1.win launch1.arr_whole c
      ((proofData m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (proofData m 1 c).Φ 0 = Pipeline.ΦA spec1 c from rfl]; unfold Pipeline.ΦA
    iintro ⟨Hp, -, Hr⟩
    isplitl [Hr]; · iexact Hr
    iexact Hp
  hout c := by
    rw [Pipeline.ownSems0_none, show (proofData m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (proofData m) ((proofData m 1 c).share_full fun _ => rfl)
      (E3 m c) (E4 m c) ((proofData m 1 c).arrAt · cfg1.N) (arrG_final m c) (restG_kept m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five items in order. -/
abbrev items : List (Pipeline.Seg (pcfgs (F := F)) adm (proofData m) () defs₀ noVariants noPairs noLevel) :=
  [ .host (stretch hostOps0 hostOps0_sub hostOps0_fresh (W0 m)),
    .region (regionP m),
    .host (stretch hostOps1 hostOps1_sub hostOps1_fresh (W2 m)),
    .region (regionG m),
    .host (stretch hostOps2 hostOps2_sub hostOps2_fresh (W4 m)) ]

theorem main_items (c : Dev nD) : main (F := F) c = Pipeline.Seg.run (items m) := (main_chain c).trans (by chain_rfl)

set_option backward.isDefEq.respectTransparency.types false in
/-- THE RUN: from any launch memory with the semaphore counters at zero, every weakly fair execution of the program
    terminates, faults nowhere, and ends with every buffer that outlives the kernels at `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (proofData m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Last m)
    (hch := ⟨fun _ => .rfl, fun _ => .rfl, fun _ => .rfl, fun _ => .rfl, fun _ => .rfl, fun c => by
      show iprop(StableHlo.held (c : Thread nD τ) (Pipeline.ucRefs τ sig) (W5 m c) ∗ Rest c)
        ⊢ iprop(Last m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W5_features m c),
     (h c _ (mem_uc main_arg1 (by decide))).trans (W5_untouched m c main_arg1 (by decide) (by decide) (by decide) (by decide) (by decide)),
     (h c _ (mem_uc main_arg2 (by decide))).trans (W5_untouched m c main_arg2 (by decide) (by decide) (by decide) (by decide) (by decide)),
     (h c _ (mem_uc main_arg3 (by decide))).trans (W5_untouched m c main_arg3 (by decide) (by decide) (by decide) (by decide) (by decide)),
     (h c _ (mem_uc main_arg4 (by decide))).trans (W5_untouched m c main_arg4 (by decide) (by decide) (by decide) (by decide) (by decide)),
     (h c _ (mem_uc main_arg5 (by decide))).trans (W5_untouched m c main_arg5 (by decide) (by decide) (by decide) (by decide) (by decide)),
     (h c _ (mem_uc main_arg6 (by decide))).trans (W5_untouched m c main_arg6 (by decide) (by decide) (by decide) (by decide) (by decide)),
     (h c _ (mem_uc main_arg7 (by decide))).trans (W5_untouched m c main_arg7 (by decide) (by decide) (by decide) (by decide) (by decide)),
     (h c _ (mem_uc main_arg8 (by decide))).trans (W5_untouched m c main_arg8 (by decide) (by decide) (by decide) (by decide) (by decide)),
     (h c _ (mem_uc main_arg9 (by decide))).trans (W5_untouched m c main_arg9 (by decide) (by decide) (by decide) (by decide) (by decide)),
     (h c _ (mem_uc main_arg10 (by decide))).trans (W5_untouched m c main_arg10 (by decide) (by decide) (by decide) (by decide) (by decide))⟩)
    (run m ρ)

end Cert.Kernel.Run

end
-- ==== Proof.StagesIdeal.lean ====
/-
  The two kernel stages of the program, each at the buffer contents `V` it is entered with, at any float instance.

  Stage one works on blocks of 2000 rows: it loads a block of the node features (2000 × 128), the whole
  128 × 512 matrix made of the four weight matrices side by side, and the 1 × 512 row made of the four biases,
  and stores the 2000 × 512 block "features times matrix, plus the bias row" (the skeleton's payload `k0_pay1`).
  Stage two works on blocks of 4000 edges: it loads a block of each of the three gathered arrays (4000 × 128)
  and stores "logistic of the sum of the first two, times the third" (the payload `k1_pay1`).

  For each stage: what a window's block is at a grid point, that an input's staging buffer holds that block when the
  body starts, what the body leaves in the output's staging buffer (one store covering the whole buffer), the body's
  run as a Hoare triple, and the proof data and body obligation the pipeline's launch theorem asks for.
-/
import proofs.«118037_j13073880449502_1_alg».proof.Proof.Gen.KernelIdeal.Launch
import proofs.«118037_j13073880449502_1_alg».proof.Proof.Gen.KernelIdeal.Skeleton
import proofs.«118037_j13073880449502_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a stage is entered with
variable (V : (c : Dev nD) → (b : Ref sig .tc) → Buf (Elt F) ((c : Thread nD τ).loc b))

/-! # Stage one: the projection, on blocks of 2000 rows -/

/-- Window `w`'s block at grid point `t`, read off the window's array as the stage finds it. -/
def blockP (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- When the body starts at point `t`, the staging buffer of the feature window holds the block of rows
    `2000 t … 2000 t + 1999`, whether it was fetched at `t` or earlier. -/
theorem stagedP_0 {c : Dev nD} (dat : Dat τ (Elt F) Unit ℕ (UR sig nD τ) ℕ cfg0 c) (hA : dat.A 0 = V c (Pipeline.arrRef spec0 0))
    (hafter : ∀ t, dat.after 0 t = blockP V c 0 t) (t : Fin cfg0.N) (d) : dat.before 0 t d = blockP V c 0 t :=
  (dat.before_in_eq_fetched 0 rfl (fun _ => rfl) (fun _ _ _ => rfl) (fun t => by rw [hafter]; unfold Dat.blockOf blockP; rw [hA]; try rfl) t d).trans
    (by unfold Dat.fetched Dat.blockOf blockP; rw [hA]; try rfl)
/-- The same for the matrix window: fetched once, its one block is the whole matrix at every point. -/
theorem stagedP_1 {c : Dev nD} (dat : Dat τ (Elt F) Unit ℕ (UR sig nD τ) ℕ cfg0 c) (hA : dat.A 1 = V c (Pipeline.arrRef spec0 1))
    (hafter : ∀ t, dat.after 1 t = blockP V c 1 t) (t : Fin cfg0.N) (d) : dat.before 1 t d = blockP V c 1 t :=
  (dat.before_in_eq_fetched 1 rfl (fun _ => rfl) (fun _ _ _ => rfl) (fun t => by rw [hafter]; unfold Dat.blockOf blockP; rw [hA]; try rfl) t d).trans
    (by unfold Dat.fetched Dat.blockOf blockP; rw [hA]; try rfl)
/-- The same for the bias-row window. -/
theorem stagedP_2 {c : Dev nD} (dat : Dat τ (Elt F) Unit ℕ (UR sig nD τ) ℕ cfg0 c) (hA : dat.A 2 = V c (Pipeline.arrRef spec0 2))
    (hafter : ∀ t, dat.after 2 t = blockP V c 2 t) (t : Fin cfg0.N) (d) : dat.before 2 t d = blockP V c 2 t :=
  (dat.before_in_eq_fetched 2 rfl (fun _ => rfl) (fun _ _ _ => rfl) (fun t => by rw [hafter]; unfold Dat.blockOf blockP; rw [hA]; try rfl) t d).trans
    (by unfold Dat.fetched Dat.blockOf blockP; rw [hA]; try rfl)

/-- The body's four accesses, each the whole of its staging buffer. -/
abbrev rX : Rect S2000x128 := Rect.unit (s := S2000x128) ![0, 0] S2000x128.size Facts₀.inb_S2000x128_S2000x128_0_0
abbrev rW : Rect S128x512 := Rect.unit (s := S128x512) ![0, 0] S128x512.size Facts₀.inb_S128x512_S128x512_0_0
abbrev rB : Rect S1x512 := Rect.unit (s := S1x512) ![0, 0] S1x512.size Facts₀.inb_S1x512_S1x512_0_0
abbrev rP : Rect S2000x512 := Rect.unit (s := S2000x512) ![0, 0] S2000x512.size Facts₀.inb_S2000x512_S2000x512_0_0

/-- What the body leaves in the output's staging buffer, from the three input blocks: its one store. -/
def projBlock (x : Vec F S2000x128 .f32) (w : Vec F S128x512 .f32) (b : Vec F S1x512 .f32) : Vec F S2000x512 .f32 :=
  View.canon [⟨rP, k0_pay1 (View.ld x rX) (View.ld w rW) (View.ld b rB)⟩]

/-- That store covers the buffer. -/
theorem projCover (p0 : Vec F S2000x512 .f32) (y : S2000x512.Idx) :
    ∃ pc ∈ ([⟨rP, p0⟩] : List (View.Piece (Elt F) S2000x512 .f32)), y ∈ pc.1.set :=
  View.cover_of_tiled [⟨rP, p0⟩] S2000x512.size (by rfl) y

set_option maxHeartbeats 1000000 in
/-- The projection body on whole staging buffers — the inputs at `x`, `w`, `b`, the output at anything — runs to its
    end with the inputs as they were and the output at `projBlock x w b`. -/
theorem projBody (c : Dev nD) (E : Set ℕ) (i : grid0.Coords) (arg1 : Memref sig .tc .vmem S2000x128 .f32) (harg1 : arg1.IsWhole)
    (arg2 : Memref sig .tc .vmem S128x512 .f32) (harg2 : arg2.IsWhole) (arg3 : Memref sig .tc .vmem S1x512 .f32) (harg3 : arg3.IsWhole)
    (arg4 : Memref sig .tc .vmem S2000x512 .f32) (harg4 : arg4.IsWhole)
    (x : Vec F S2000x128 .f32) (w : Vec F S128x512 .f32) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projBlock x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-- Stage one's proof data on core `c`: the arrays as the stage finds them; after the body at point `t` each input's
    buffer still at its block and the output's at `projBlock` of the three input blocks; nothing owed. -/
def datP (c : Dev nD) : Dat τ (Elt F) Unit ℕ (UR sig nD τ) ℕ cfg0 c where
  A w := V c (Pipeline.arrRef spec0 w)
  after w t := match w with
    | ⟨0, _⟩ => blockP V c 0 t
    | ⟨1, _⟩ => blockP V c 1 t
    | ⟨2, _⟩ => blockP V c 2 t
    | ⟨3, _⟩ => projBlock (blockP V c 0 t) (blockP V c 1 t) (blockP V c 2 t)
  Φ _ := Pipeline.ΦA spec0 c
  q _ := fullShare
  owed _ := 0

theorem datP_A (c : Dev nD) (w : Fin cfg0.W) : (datP V c).A w = V c (Pipeline.arrRef spec0 w) := by
  dsimp only [datP]
theorem datP_after0 (c : Dev nD) (t : Fin cfg0.N) : (datP V c).after 0 t = blockP V c 0 t := by dsimp only [datP]
theorem datP_after1 (c : Dev nD) (t : Fin cfg0.N) : (datP V c).after 1 t = blockP V c 1 t := by dsimp only [datP]
theorem datP_after2 (c : Dev nD) (t : Fin cfg0.N) : (datP V c).after 2 t = blockP V c 2 t := by dsimp only [datP]
theorem datP_after3 (c : Dev nD) (t : Fin cfg0.N) :
    (datP V c).after 3 t = projBlock (blockP V c 0 t) (blockP V c 1 t) (blockP V c 2 t) := by dsimp only [datP]

theorem datP_before0 (c : Dev nD) (t : Fin cfg0.N) (d) : (datP V c).before 0 t d = blockP V c 0 t :=
  stagedP_0 V (datP V c) (datP_A V c 0) (datP_after0 V c) t d
theorem datP_before1 (c : Dev nD) (t : Fin cfg0.N) (d) : (datP V c).before 1 t d = blockP V c 1 t :=
  stagedP_1 V (datP V c) (datP_A V c 1) (datP_after1 V c) t d
theorem datP_before2 (c : Dev nD) (t : Fin cfg0.N) (d) : (datP V c).before 2 t d = blockP V c 2 t :=
  stagedP_2 V (datP V c) (datP_A V c 2) (datP_after2 V c) t d

/-- What the pipeline calls the body with at point `t`, -/
def preP (c : Dev nD) (t : Fin cfg0.N) : sProp 𝕄 :=
  iprop((datP V c).Φ t.castSucc ∗ (datP V c).owesAt () t.castSucc
    ∗ (∃ d, owns (c : Thread nD τ) (st0_0 t) fullShare ((datP V c).before 0 t d))
    ∗ (∃ d, owns (c : Thread nD τ) (st0_1 t) fullShare ((datP V c).before 1 t d))
    ∗ (∃ d, owns (c : Thread nD τ) (st0_2 t) fullShare ((datP V c).before 2 t d))
    ∗ (∃ d, owns (c : Thread nD τ) (st0_3 t) fullShare ((datP V c).before 3 t d)))

/-- and what it gets back. -/
def postP (c : Dev nD) (t : Fin cfg0.N) : sProp 𝕄 :=
  iprop((datP V c).Φ t.succ ∗ (datP V c).owesAt () t.succ
    ∗ owns (c : Thread nD τ) (st0_0 t) fullShare ((datP V c).after 0 t)
    ∗ owns (c : Thread nD τ) (st0_1 t) fullShare ((datP V c).after 1 t)
    ∗ owns (c : Thread nD τ) (st0_2 t) fullShare ((datP V c).after 2 t)
    ∗ owns (c : Thread nD τ) (st0_3 t) fullShare ((datP V c).after 3 t))

/-- The body at any point: the inputs' buffers hold their blocks, so `projBody` applies. -/
theorem bodyP (c : Dev nD) (t : Fin cfg0.N) :
    preP V c t ⊢ wp frame (wpE (defs₀ (F := F)) Variants.none c none) Set.univ (bodyAt0 t) (fun _ => postP V c t) := by
  unfold preP postP bodyAt0
  simp only [datP_before0, datP_before1, datP_before2]
  rw [show (datP V c).Φ t.succ = (datP V c).Φ t.castSucc from rfl,
    show (datP V c).owesAt () t.succ = (datP V c).owesAt () t.castSucc from rfl,
    datP_after0, datP_after1, datP_after2, datP_after3]
  iintro ⟨HΦ, Ho, ⟨%d0, H0⟩, ⟨%d1, H1⟩, ⟨%d2, H2⟩, ⟨%d3, H3⟩⟩
  iapply (projBody c Set.univ (grid0.coords t) _ _ _ _ _ _ _ _ (blockP V c 0 t) (blockP V c 1 t) (blockP V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligationP (c : Dev nD) : BodyObligation (datP (F := F) V c) (defs₀ (F := F)) Variants.none () Set.univ := fun t => by
  rw [bigSep_W0, bigSep_W0]
  exact bodyP V c t

/-! # Stage two: the gated message, on blocks of 4000 edges -/

/-- Window `w`'s block at grid point `t`, read off the window's array as the stage finds it. -/
def blockG (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- When the body starts at point `t`, each input's staging buffer holds the block of edges `4000 t … 4000 t + 3999`. -/
theorem stagedG_0 {c : Dev nD} (dat : Dat τ (Elt F) Unit ℕ (UR sig nD τ) ℕ cfg1 c) (hA : dat.A 0 = V c (Pipeline.arrRef spec1 0))
    (hafter : ∀ t, dat.after 0 t = blockG V c 0 t) (t : Fin cfg1.N) (d) : dat.before 0 t d = blockG V c 0 t :=
  (dat.before_in_eq_fetched 0 rfl (fun _ => rfl) (fun _ _ _ => rfl) (fun t => by rw [hafter]; unfold Dat.blockOf blockG; rw [hA]; try rfl) t d).trans
    (by unfold Dat.fetched Dat.blockOf blockG; rw [hA]; try rfl)
theorem stagedG_1 {c : Dev nD} (dat : Dat τ (Elt F) Unit ℕ (UR sig nD τ) ℕ cfg1 c) (hA : dat.A 1 = V c (Pipeline.arrRef spec1 1))
    (hafter : ∀ t, dat.after 1 t = blockG V c 1 t) (t : Fin cfg1.N) (d) : dat.before 1 t d = blockG V c 1 t :=
  (dat.before_in_eq_fetched 1 rfl (fun _ => rfl) (fun _ _ _ => rfl) (fun t => by rw [hafter]; unfold Dat.blockOf blockG; rw [hA]; try rfl) t d).trans
    (by unfold Dat.fetched Dat.blockOf blockG; rw [hA]; try rfl)
theorem stagedG_2 {c : Dev nD} (dat : Dat τ (Elt F) Unit ℕ (UR sig nD τ) ℕ cfg1 c) (hA : dat.A 2 = V c (Pipeline.arrRef spec1 2))
    (hafter : ∀ t, dat.after 2 t = blockG V c 2 t) (t : Fin cfg1.N) (d) : dat.before 2 t d = blockG V c 2 t :=
  (dat.before_in_eq_fetched 2 rfl (fun _ => rfl) (fun _ _ _ => rfl) (fun t => by rw [hafter]; unfold Dat.blockOf blockG; rw [hA]; try rfl) t d).trans
    (by unfold Dat.fetched Dat.blockOf blockG; rw [hA]; try rfl)

/-- The body's accesses: every one the whole of a 4000 × 128 staging buffer. -/
abbrev rE : Rect S4000x128 := Rect.unit (s := S4000x128) ![0, 0] S4000x128.size Facts₀.inb_S4000x128_S4000x128_0_0

/-- What the body leaves in the output's staging buffer, from the three input blocks: its one store. -/
def gateBlock (kd : Vec F S4000x128 .f32) (qs : Vec F S4000x128 .f32) (vs : Vec F S4000x128 .f32) : Vec F S4000x128 .f32 :=
  View.canon [⟨rE, k1_pay1 (View.ld kd rE) (View.ld qs rE) (View.ld vs rE)⟩]

theorem gateCover (p0 : Vec F S4000x128 .f32) (y : S4000x128.Idx) :
    ∃ pc ∈ ([⟨rE, p0⟩] : List (View.Piece (Elt F) S4000x128 .f32)), y ∈ pc.1.set :=
  View.cover_of_tiled [⟨rE, p0⟩] S4000x128.size (by rfl) y

set_option maxHeartbeats 1000000 in
/-- The gate body on whole staging buffers — the inputs at `kd`, `qs`, `vs`, the output at anything — runs to its end
    with the inputs as they were and the output at `gateBlock kd qs vs`. -/
theorem gateBody (c : Dev nD) (E : Set ℕ) (i : grid1.Coords) (arg1 : Memref sig .tc .vmem S4000x128 .f32) (harg1 : arg1.IsWhole)
    (arg2 : Memref sig .tc .vmem S4000x128 .f32) (harg2 : arg2.IsWhole) (arg3 : Memref sig .tc .vmem S4000x128 .f32) (harg3 : arg3.IsWhole)
    (arg4 : Memref sig .tc .vmem S4000x128 .f32) (harg4 : arg4.IsWhole)
    (kd : Vec F S4000x128 .f32) (qs : Vec F S4000x128 .f32) (vs : Vec F S4000x128 .f32) (K : PUnit → sProp 𝕄) :
    iprop(owns (c : Thread nD τ) arg1 fullShare kd ∗ owns (c : Thread nD τ) arg2 fullShare qs ∗ owns (c : Thread nD τ) arg3 fullShare vs
        ∗ (∃ d, owns (c : Thread nD τ) arg4 fullShare d)
        ∗ (iprop(owns (c : Thread nD τ) arg1 fullShare kd ∗ owns (c : Thread nD τ) arg2 fullShare qs ∗ owns (c : Thread nD τ) arg3 fullShare vs
            ∗ owns (c : Thread nD τ) arg4 fullShare (gateBlock kd qs vs)) -∗ K ⟨⟩))
      ⊢ wp frame (wpE (defs₀ (F := F)) Variants.none c none) E (cc1__gate_kernel i arg1 harg1 arg2 harg2 arg3 harg3 arg4 harg4) K := by
  simp only [cc1__gate_kernel_eq_skeleton]; unfold cc1__gate_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (gateCover _)

/-- Stage two's proof data on core `c`. -/
def datG (c : Dev nD) : Dat τ (Elt F) Unit ℕ (UR sig nD τ) ℕ cfg1 c where
  A w := V c (Pipeline.arrRef spec1 w)
  after w t := match w with
    | ⟨0, _⟩ => blockG V c 0 t
    | ⟨1, _⟩ => blockG V c 1 t
    | ⟨2, _⟩ => blockG V c 2 t
    | ⟨3, _⟩ => gateBlock (blockG V c 0 t) (blockG V c 1 t) (blockG V c 2 t)
  Φ _ := Pipeline.ΦA spec1 c
  q _ := fullShare
  owed _ := 0

theorem datG_A (c : Dev nD) (w : Fin cfg1.W) : (datG V c).A w = V c (Pipeline.arrRef spec1 w) := by
  dsimp only [datG]
theorem datG_after0 (c : Dev nD) (t : Fin cfg1.N) : (datG V c).after 0 t = blockG V c 0 t := by dsimp only [datG]
theorem datG_after1 (c : Dev nD) (t : Fin cfg1.N) : (datG V c).after 1 t = blockG V c 1 t := by dsimp only [datG]
theorem datG_after2 (c : Dev nD) (t : Fin cfg1.N) : (datG V c).after 2 t = blockG V c 2 t := by dsimp only [datG]
theorem datG_after3 (c : Dev nD) (t : Fin cfg1.N) :
    (datG V c).after 3 t = gateBlock (blockG V c 0 t) (blockG V c 1 t) (blockG V c 2 t) := by dsimp only [datG]

theorem datG_before0 (c : Dev nD) (t : Fin cfg1.N) (d) : (datG V c).before 0 t d = blockG V c 0 t :=
  stagedG_0 V (datG V c) (datG_A V c 0) (datG_after0 V c) t d
theorem datG_before1 (c : Dev nD) (t : Fin cfg1.N) (d) : (datG V c).before 1 t d = blockG V c 1 t :=
  stagedG_1 V (datG V c) (datG_A V c 1) (datG_after1 V c) t d
theorem datG_before2 (c : Dev nD) (t : Fin cfg1.N) (d) : (datG V c).before 2 t d = blockG V c 2 t :=
  stagedG_2 V (datG V c) (datG_A V c 2) (datG_after2 V c) t d

def preG (c : Dev nD) (t : Fin cfg1.N) : sProp 𝕄 :=
  iprop((datG V c).Φ t.castSucc ∗ (datG V c).owesAt () t.castSucc
    ∗ (∃ d, owns (c : Thread nD τ) (st1_0 t) fullShare ((datG V c).before 0 t d))
    ∗ (∃ d, owns (c : Thread nD τ) (st1_1 t) fullShare ((datG V c).before 1 t d))
    ∗ (∃ d, owns (c : Thread nD τ) (st1_2 t) fullShare ((datG V c).before 2 t d))
    ∗ (∃ d, owns (c : Thread nD τ) (st1_3 t) fullShare ((datG V c).before 3 t d)))

def postG (c : Dev nD) (t : Fin cfg1.N) : sProp 𝕄 :=
  iprop((datG V c).Φ t.succ ∗ (datG V c).owesAt () t.succ
    ∗ owns (c : Thread nD τ) (st1_0 t) fullShare ((datG V c).after 0 t)
    ∗ owns (c : Thread nD τ) (st1_1 t) fullShare ((datG V c).after 1 t)
    ∗ owns (c : Thread nD τ) (st1_2 t) fullShare ((datG V c).after 2 t)
    ∗ owns (c : Thread nD τ) (st1_3 t) fullShare ((datG V c).after 3 t))

theorem bodyG (c : Dev nD) (t : Fin cfg1.N) :
    preG V c t ⊢ wp frame (wpE (defs₀ (F := F)) Variants.none c none) Set.univ (bodyAt1 t) (fun _ => postG V c t) := by
  unfold preG postG bodyAt1
  simp only [datG_before0, datG_before1, datG_before2]
  rw [show (datG V c).Φ t.succ = (datG V c).Φ t.castSucc from rfl,
    show (datG V c).owesAt () t.succ = (datG V c).owesAt () t.castSucc from rfl,
    datG_after0, datG_after1, datG_after2, datG_after3]
  iintro ⟨HΦ, Ho, ⟨%d0, H0⟩, ⟨%d1, H1⟩, ⟨%d2, H2⟩, ⟨%d3, H3⟩⟩
  iapply (gateBody c Set.univ (grid1.coords t) _ _ _ _ _ _ _ _ (blockG V c 0 t) (blockG V c 1 t) (blockG V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligationG (c : Dev nD) : BodyObligation (datG (F := F) V c) (defs₀ (F := F)) Variants.none () Set.univ := fun t => by
  rw [bigSep_W1, bigSep_W1]
  exact bodyG V c t

end Cert.KernelIdeal.Stages

end
-- ==== Proof.RunIdeal.lean ====
/-
  The whole program's run, at any float instance: the launch memory, three stretches of host operations and the two
  kernel stages between them, followed buffer by buffer.

  `W0 … W5` are the contents of the device's buffers at the six boundaries: at launch; after the first host stretch
  (the two concatenations and the reshape of the bias row); after stage one (its output array at what the twenty
  write-backs leave, everything else untouched); after the second stretch (the four column slices, the index
  arithmetic, the three gathers); after stage two (its output array at what the 160 write-backs leave); after the last
  stretch (the scatter-add and the two additions). The theorem `run` says every weakly fair execution terminates,
  faults nowhere, and ends with every buffer that outlives the kernels at `W5`. The frame claim follows because no
  stretch writes an argument and no stage writes back into one.
-/
import proofs.«118037_j13073880449502_1_alg».proof.Proof.StagesIdeal
import proofs.«118037_j13073880449502_1_alg».proof.Proof.Gen.KernelIdeal.Regions

set_option maxRecDepth 16384

noncomputable section

namespace Cert.KernelIdeal.Run

open Cert.KernelIdeal Cert.KernelIdeal.Gen Cert.KernelIdeal.Stages
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the six boundaries -/

/-- At launch. -/
abbrev W0 : Dev nD → Valuation τ sig (Elt F) := fun c b => m (c, b)
/-- After the first host stretch: stage one's entry. -/
abbrev W1 : Dev nD → Valuation τ sig (Elt F) := fun c => StableHlo.after hostOps0 (W0 m c)
/-- The same, read at the TensorCore's references. -/
abbrev E1 : (c : Dev nD) → (b : Ref sig .tc) → Buf (Elt F) ((c : Thread nD τ).loc b) := fun c b => W1 m c b
/-- After stage one: its four arrays at what the pipeline leaves, every other buffer as entered. -/
def W2 (c : Dev nD) : Valuation τ sig (Elt F) :=
  Pipeline.withArrays spec0 c (W1 m c) fun w => (datP (E1 m) c).arrAt w cfg0.N
theorem W2_arr (c : Dev nD) (w : Fin cfg0.W) :
    W2 m c (Proc.devRef .tc (Pipeline.arrRef spec0 w)) = (datP (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem arrP_final (c : Dev nD) (w : Fin cfg0.W) : (datP (E1 m) c).arrAt w cfg0.N = E2 m c (Pipeline.arrRef spec0 w) :=
  (W2_arr m c w).symm
theorem restP_kept (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch: stage two's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After stage two. -/
def W4 (c : Dev nD) : Valuation τ sig (Elt F) :=
  Pipeline.withArrays spec1 c (W3 m c) fun w => (datG (E3 m) c).arrAt w cfg1.N
theorem W4_arr (c : Dev nD) (w : Fin cfg1.W) :
    W4 m c (Proc.devRef .tc (Pipeline.arrRef spec1 w)) = (datG (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem arrG_final (c : Dev nD) (w : Fin cfg1.W) : (datG (E3 m) c).arrAt w cfg1.N = E4 m c (Pipeline.arrRef spec1 w) :=
  (W4_arr m c w).symm
theorem restG_kept (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the last host stretch: the end. -/
abbrev W5 : Dev nD → Valuation τ sig (Elt F) := fun c => StableHlo.after hostOps2 (W4 m c)

/-! ## A buffer no stretch writes and no stage has a window on ends as launched -/

theorem W5_untouched (c : Dev nD) (r : Ref sig .tc) (h0 : r ∉ hostOps0_W) (h1 : r ∉ hostOps1_W) (h2 : r ∉ hostOps2_W)
    (hp : ∀ w, Pipeline.arrRef spec0 w ≠ r) (hg : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hg
    _ = W2 m c (Proc.devRef .tc r) := StableHlo.after_of_writes_sub hostOps1 _ hostOps1_writes h1
    _ = W1 m c (Proc.devRef .tc r) := W2_of_ne m c r hp
    _ = W0 m c (Proc.devRef .tc r) := StableHlo.after_of_writes_sub hostOps0 _ hostOps0_writes h0
    _ = m ((c : Thread nD τ).loc r) := rfl

/-- The node features are stage one's first window, an input: the pipeline leaves an input's array as it found it. -/
theorem W5_features (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((datP (E1 m) c).arrAt_in 0 rfl _).trans (datP_A (E1 m) c 0))
    _ = W0 m c (Proc.devRef .tc main_arg0) := StableHlo.after_of_writes_sub hostOps0 _ hostOps0_writes (by decide)
    _ = m ((c : Thread nD τ).loc main_arg0) := rfl

/-! ## The proof data, the thread state, the items -/

/-- Each stage's proof data at its entry contents. -/
def proofData : (p : Fin 2) → (c : Dev nD) → Dat τ (Elt F) Unit ℕ (UR sig nD τ) ℕ (Pipeline.pin (pcfgs (F := F)) adm p) c
  | ⟨0, _⟩ => fun c => datP (E1 m) c
  | ⟨1, _⟩ => fun c => datG (E3 m) c
abbrev noVariants : Variants := Variants.none
abbrev noPairs : GSem nD τ sig → Finset Unit := fun _ => ∅
abbrev noLevel : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
/-- A host stretch from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without what is owed. -/
abbrev Last (c : Dev nD) : sProp 𝕄 := iprop(StableHlo.held (c : Thread nD τ) (Pipeline.ucRefs τ sig) (W5 m c) ∗ ∃ r, prngReg c r)

set_option backward.isDefEq.respectTransparency.types false in
/-- Stage one as an item: entered with every lasting buffer at `W1`, left with them at `W2`. -/
def regionP : Pipeline.RegionSeg (pcfgs (F := F)) adm (proofData m) () defs₀ noVariants noPairs noLevel 0 where
  win := launch0.win.to₀
  block_pos := launch0.block_pos
  stage_whole := launch0.stage_whole
  K := PEmpty
  osem k := k.elim
  ho := Pipeline.OwnSemFacts.none _
  hbody c := (obligationP (E1 m) c).loose
  hwaits := Pipeline.hwaits_of_owed_zero _ _ _ _ noPairs noLevel 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (proofData m) launch0.win launch0.arr_whole c
      ((proofData m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (proofData m 0 c).Φ 0 = Pipeline.ΦA spec0 c from rfl]; unfold Pipeline.ΦA
    iintro ⟨Hp, -, Hr⟩
    isplitl [Hr]; · iexact Hr
    iexact Hp
  hout c := by
    rw [Pipeline.ownSems0_none, show (proofData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (proofData m) ((proofData m 0 c).share_full fun _ => rfl)
      (E1 m c) (E2 m c) ((proofData m 0 c).arrAt · cfg0.N) (arrP_final m c) (restP_kept m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage two as an item: entered with every lasting buffer at `W3`, left with them at `W4`. -/
def regionG : Pipeline.RegionSeg (pcfgs (F := F)) adm (proofData m) () defs₀ noVariants noPairs noLevel 1 where
  win := launch1.win.to₀
  block_pos := launch1.block_pos
  stage_whole := launch1.stage_whole
  K := PEmpty
  osem k := k.elim
  ho := Pipeline.OwnSemFacts.none _
  hbody c := (obligationG (E3 m) c).loose
  hwaits := Pipeline.hwaits_of_owed_zero _ _ _ _ noPairs noLevel 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (proofData m) launch1.win launch1.arr_whole c
      ((proofData m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (proofData m 1 c).Φ 0 = Pipeline.ΦA spec1 c from rfl]; unfold Pipeline.ΦA
    iintro ⟨Hp, -, Hr⟩
    isplitl [Hr]; · iexact Hr
    iexact Hp
  hout c := by
    rw [Pipeline.ownSems0_none, show (proofData m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (proofData m) ((proofData m 1 c).share_full fun _ => rfl)
      (E3 m c) (E4 m c) ((proofData m 1 c).arrAt · cfg1.N) (arrG_final m c) (restG_kept m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five items in order. -/
abbrev items : List (Pipeline.Seg (pcfgs (F := F)) adm (proofData m) () defs₀ noVariants noPairs noLevel) :=
  [ .host (stretch hostOps0 hostOps0_sub hostOps0_fresh (W0 m)),
    .region (regionP m),
    .host (stretch hostOps1 hostOps1_sub hostOps1_fresh (W2 m)),
    .region (regionG m),
    .host (stretch hostOps2 hostOps2_sub hostOps2_fresh (W4 m)) ]

theorem main_items (c : Dev nD) : main (F := F) c = Pipeline.Seg.run (items m) := (main_chain c).trans (by chain_rfl)

set_option backward.isDefEq.respectTransparency.types false in
/-- THE RUN: from any launch memory with the semaphore counters at zero, every weakly fair execution of the program
    terminates, faults nowhere, and ends with every buffer that outlives the kernels at `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (proofData m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Last m)
    (hch := ⟨fun _ => .rfl, fun _ => .rfl, fun _ => .rfl, fun _ => .rfl, fun _ => .rfl, fun c => by
      show iprop(StableHlo.held (c : Thread nD τ) (Pipeline.ucRefs τ sig) (W5 m c) ∗ Rest c)
        ⊢ iprop(Last m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W5_features m c),
     (h c _ (mem_uc main_arg1 (by decide))).trans (W5_untouched m c main_arg1 (by decide) (by decide) (by decide) (by decide) (by decide)),
     (h c _ (mem_uc main_arg2 (by decide))).trans (W5_untouched m c main_arg2 (by decide) (by decide) (by decide) (by decide) (by decide)),
     (h c _ (mem_uc main_arg3 (by decide))).trans (W5_untouched m c main_arg3 (by decide) (by decide) (by decide) (by decide) (by decide)),
     (h c _ (mem_uc main_arg4 (by decide))).trans (W5_untouched m c main_arg4 (by decide) (by decide) (by decide) (by decide) (by decide)),
     (h c _ (mem_uc main_arg5 (by decide))).trans (W5_untouched m c main_arg5 (by decide) (by decide) (by decide) (by decide) (by decide)),
     (h c _ (mem_uc main_arg6 (by decide))).trans (W5_untouched m c main_arg6 (by decide) (by decide) (by decide) (by decide) (by decide)),
     (h c _ (mem_uc main_arg7 (by decide))).trans (W5_untouched m c main_arg7 (by decide) (by decide) (by decide) (by decide) (by decide)),
     (h c _ (mem_uc main_arg8 (by decide))).trans (W5_untouched m c main_arg8 (by decide) (by decide) (by decide) (by decide) (by decide)),
     (h c _ (mem_uc main_arg9 (by decide))).trans (W5_untouched m c main_arg9 (by decide) (by decide) (by decide) (by decide) (by decide)),
     (h c _ (mem_uc main_arg10 (by decide))).trans (W5_untouched m c main_arg10 (by decide) (by decide) (by decide) (by decide) (by decide))⟩)
    (run m ρ)

end Cert.KernelIdeal.Run

end
-- ==== Proof.GateValue.lean ====
/-
  Stage two's output array as one function of the three gathered arrays it is entered with, at any float instance.

  The stage works on 160 blocks of 4000 edges; at block `t` every window — the three inputs and the output — is at
  rows `4000 t … 4000 t + 3999` and all 128 columns, and the body stores, entry by entry,
  `logistic (kd + qs) * vs`. The 160 blocks tile the 640000 rows, so the array ends as that one pointwise function.
-/
import proofs.«118037_j13073880449502_1_alg».proof.Proof.StagesIdeal
import Idealize.ShloMosaic.Lib.Pipeline.Value

set_option maxRecDepth 16384

noncomputable section

namespace Cert.KernelIdeal.GateValue

open Cert.KernelIdeal Cert.KernelIdeal.Gen Cert.KernelIdeal.Stages
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem noOffset : (![0, 0] : Fin 2 → Nat) = fun _ => 0 := funext fun a => by fin_cases a <;> rfl

/-- The message of every edge, feature by feature: the gate `logistic (kd + qs)` times the value `vs`. -/
def message (kd qs vs : S640000x128.Idx → Elt F .f32) : S640000x128.Idx → Elt F .f32 :=
  fun i => FloatOps.mulf (FloatOps.logistic (FloatOps.addf (kd i) (qs i))) (vs i)

/-- The body's stored value is that tree of pointwise operations of its three loaded blocks (the casts are of a shape
    to itself). -/
theorem gatePayload (x0 x1 x2 : Vec F S4000x128 .f32) : k1_pay1 x0 x1 x2 = mulf (logistic (addf x0 x1)) x2 := by
  unfold k1_pay1
  simp only [shapeCast_self]

/-- At point `t` all four windows sit at block row `t`, block column 0. -/
theorem rowsOf : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = win1_3.index t (0 : Fin 2) ∧ win1_2.index t (1 : Fin 2) = win1_3.index t (1 : Fin 2)
    ∧ win1_3.index t (0 : Fin 2) ≤ 159 ∧ win1_3.index t (1 : Fin 2) = 0 :=
  (by decide +kernel : ∀ t : Fin grid1.N, _)

/-- Every block row is some point's. -/
theorem rowOnto : ∀ q : Fin 160, ∃ t : Fin cfg1.N, win1_3.index t = ![q.val, 0] :=
  (by decide +kernel : ∀ q : Fin 160, ∃ t : Fin grid1.N, win1_3.index t = ![q.val, 0])

/-- What point `t` writes back is block `t` of `message` of the three arrays as the stage finds them. -/
theorem gateFlushed (c : Dev nD) (t : Fin cfg1.N) :
    (datG V c).flushed 3 t = ((cfg1.win 3).blk t).view.read (Elt F) (message (V c main_v18) (V c main_v25) (V c main_v32)) := by
  show (cfg1.win 3).cut (grid1.coords t) ((datG V c).after 3 t) = _
  rw [datG_after3]
  unfold gateBlock
  rw [View.canon_unit_zero noOffset]
  simp only [View.ld_unit_zero (S := S4000x128) noOffset]
  rw [gatePayload]
  obtain ⟨e0, e1, e2, e3, e4, e5, -, -⟩ := rowsOf t
  funext j
  show FloatOps.mulf (FloatOps.logistic (FloatOps.addf (V c main_v18 (((cfg1.win 0).blk t).view.emb j)) (V c main_v25 (((cfg1.win 1).blk t).view.emb j))))
      (V c main_v32 (((cfg1.win 2).blk t).view.emb j))
    = FloatOps.mulf (FloatOps.logistic (FloatOps.addf (V c main_v18 (((cfg1.win 3).blk t).view.emb j)) (V c main_v25 (((cfg1.win 3).blk t).view.emb j))))
      (V c main_v32 (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 4000 + 1 * (j 0).val = win1_3.index t (0 : Fin 2) * 4000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 4000 + 1 * (j 0).val = win1_3.index t (0 : Fin 2) * 4000 + 1 * (j 0).val; omega
    | ⟨1, _⟩ => show win1_2.index t (1 : Fin 2) * 128 + 1 * (j 1).val = win1_3.index t (1 : Fin 2) * 128 + 1 * (j 1).val; omega
  rw [h0, h1, h2]

/-- An index of the output array is in point `t`'s block iff each coordinate is in the block's range on its axis. -/
theorem inBlock (t : Fin cfg1.N) (i : S640000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v33).slice (win1_3.rect t)).set ↔ _
  rw [View.set_slice_whole, Rect.mem_set_unit]
  exact Iff.rfl

/-- Row `r` is written by the point of block row `r / 4000`: the blocks tile the array. -/
theorem tiled (i : S640000x128.Idx) : ∃ t : Fin cfg1.N, (cfg1.win 3).flush t = true ∧ i ∈ ((cfg1.win 3).blk t).view.set := by
  have hi0 : (i 0).val < 640000 := (i 0).isLt
  have hi1 : (i 1).val < 128 := (i 1).isLt
  obtain ⟨t, ht⟩ := rowOnto ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [inBlock]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- The output array after the stage: `message` of the three gathered arrays. -/
theorem stageTwo_final (c : Dev nD) :
    (datG V c).arrAt 3 cfg1.N = message (V c main_v18) (V c main_v25) (V c main_v32) :=
  (datG V c).arrAt_eq_of_cover 3 (message (V c main_v18) (V c main_v25) (V c main_v32)) (fun t _ => gateFlushed V c t) tiled

end Cert.KernelIdeal.GateValue

end
-- ==== Proof.KernelValue.lean ====
/-
  What the kernel program's result buffer holds at the end, at any float instance, as one term of the launch memory
  and of the 40000 × 512 array `P` that stage one leaves.

  Read backwards from the end: the result is `(aggr + root) + b`, where `b` is the last bias broadcast along the
  rows, `root` is columns 384…511 of `P`, and `aggr` is the scatter-add, by the raw target indices, of stage two's
  output into zeros. Stage two's output is the pointwise `message` of three row gathers — of columns 0…127 of `P` by the
  wrapped target indices, and of columns 128…255 and 256…383 of `P` by the wrapped source indices ("wrapped": a negative
  index has 40000 added). The source and target indices are rows 0 and 1 of the edge list.
-/
import proofs.«118037_j13073880449502_1_alg».proof.Proof.RunIdeal
import proofs.«118037_j13073880449502_1_alg».proof.Proof.GateValue
import Idealize.ShloMosaic.Lib.StableHlo.Run

set_option maxRecDepth 16384

noncomputable section

namespace Cert.KernelIdeal.Whole

open Cert.KernelIdeal Cert.KernelIdeal.Gen Cert.KernelIdeal.Stages Cert.KernelIdeal.Run Cert.KernelIdeal.GateValue
open Idealize.ShloMosaic Idealize.ShloMosaic.TcCoe Idealize.SL.Sem Idealize.ShloMosaic.StableHlo

variable {F : FTy → Type} [FloatOps F]

/-! ## The pieces, as functions of whole arrays -/

/-- The four weight matrices side by side: 128 × 512. -/
def wideMatrix (wk wq wv ws : (⟨S128x128, .f32⟩ : BufTy).Contents (Elt F)) : (⟨S128x512, .f32⟩ : BufTy).Contents (Elt F) :=
  concatenate S128x512 1 [⟨S128x128, wk⟩, ⟨S128x128, wq⟩, ⟨S128x128, wv⟩, ⟨S128x128, ws⟩] Facts₀.concatenates_S128x128_S128x128_S128x128_S128x128_S128x512_d1

/-- The four first biases end to end, as a 1 × 512 row. -/
def wideBias (bk bq bv bs : (⟨S128, .f32⟩ : BufTy).Contents (Elt F)) : (⟨S1x512, .f32⟩ : BufTy).Contents (Elt F) :=
  shapeCast S1x512 (concatenate S512 0 [⟨S128, bk⟩, ⟨S128, bq⟩, ⟨S128, bv⟩, ⟨S128, bs⟩] Facts₀.concatenates_S128_S128_S128_S128_S512_d0) Facts₀.shapeCasts_S512_S1x512

/-- Row 0 of the edge list: the source node of every edge. -/
def sources (ei : (⟨S2x640000, .i32⟩ : BufTy).Contents (Elt F)) : (⟨S640000, .i32⟩ : BufTy).Contents (Elt F) :=
  shapeCast S640000 (extractStridedSlice S1x640000 ![0, 0] ei Facts₀.slices_S2x640000_S1x640000_0_0) Facts₀.shapeCasts_S1x640000_S640000
/-- Row 1 of the edge list: the target node of every edge. -/
def targets (ei : (⟨S2x640000, .i32⟩ : BufTy).Contents (Elt F)) : (⟨S640000, .i32⟩ : BufTy).Contents (Elt F) :=
  shapeCast S640000 (extractStridedSlice S1x640000 ![1, 0] ei Facts₀.slices_S2x640000_S1x640000_1_0) Facts₀.shapeCasts_S1x640000_S640000

/-- An index column for a row gather: a negative index has 40000 added; then a unit axis is appended. -/
def wrapped (v : (⟨S640000, .i32⟩ : BufTy).Contents (Elt F)) : (⟨S640000x1, .i32⟩ : BufTy).Contents (Elt F) :=
  broadcastInDim S640000x1 ![0] Facts₀.bcast_S640000_S640000x1_0
    (select (cmpi .slt v (broadcastInDim S640000 ![] Facts₀.bcast_S_S640000 (constantI S_ 32 0#32)))
      (addi v (broadcastInDim S640000 ![] Facts₀.bcast_S_S640000 (constantI S_ 32 40000#32))) v)

/-- Columns `off … off + 127` of a 40000 × 512 array. -/
abbrev columns (off : Fin 2 → Nat) (h : S40000x512.Slices off S40000x128) (P : (⟨S40000x512, .f32⟩ : BufTy).Contents (Elt F)) :
    (⟨S40000x128, .f32⟩ : BufTy).Contents (Elt F) := extractStridedSlice S40000x128 off P h

/-- The layer's output from the four projected arrays `k`, `q`, `v`, `root`, the edge list and the last bias, with the
    gate in one step (`logistic`). -/
def layerOut (k q v root : (⟨S40000x128, .f32⟩ : BufTy).Contents (Elt F)) (ei : (⟨S2x640000, .i32⟩ : BufTy).Contents (Elt F))
    (b : (⟨S128, .f32⟩ : BufTy).Contents (Elt F)) : (⟨S40000x128, .f32⟩ : BufTy).Contents (Elt F) :=
  addf (addf (Host.scatterAdd scatter_S40000x128_S640000x1_S640000x128_1_0_0_1
        (broadcastInDim S40000x128 ![] Facts₀.bcast_S_S40000x128 (constant S_ .f32 0x00000000#32))
        (broadcastInDim S640000x1 ![0] Facts₀.bcast_S640000_S640000x1_0 (targets ei))
        (message (Host.gather gather_S40000x128_S640000x1_S640000x128_1_0_n_n_0_1_1128 k (wrapped (targets ei)))
                 (Host.gather gather_S40000x128_S640000x1_S640000x128_1_0_n_n_0_1_1128 q (wrapped (sources ei)))
                 (Host.gather gather_S40000x128_S640000x1_S640000x128_1_0_n_n_0_1_1128 v (wrapped (sources ei)))))
      root)
    (broadcastInDim S40000x128 ![0, 1] Facts₀.bcast_S1x128_S40000x128_0_1 (broadcastInDim S1x128 ![1] Facts₀.bcast_S128_S1x128_1 b))

variable (m : (ℓ : Loc nD τ sig) → Buf (Elt F) ℓ)

/-! ## The first host stretch -/

theorem W1_matrix (c : Dev nD) : W1 m c (Proc.devRef .tc main_v0)
    = wideMatrix (m ((c : Thread nD τ).loc main_arg2)) (m ((c : Thread nD τ).loc main_arg4)) (m ((c : Thread nD τ).loc main_arg6)) (m ((c : Thread nD τ).loc main_arg8)) := by
  show StableHlo.after hostOps0 (W0 m c) (Proc.devRef .tc main_v0) = _
  after_results <;> rfl

theorem W1_bias (c : Dev nD) : W1 m c (Proc.devRef .tc main_v2)
    = wideBias (m ((c : Thread nD τ).loc main_arg3)) (m ((c : Thread nD τ).loc main_arg5)) (m ((c : Thread nD τ).loc main_arg7)) (m ((c : Thread nD τ).loc main_arg9)) := by
  show StableHlo.after hostOps0 (W0 m c) (Proc.devRef .tc main_v2) = _
  after_results <;> rfl

theorem W1_features (c : Dev nD) : W1 m c (Proc.devRef .tc main_arg0) = m ((c : Thread nD τ).loc main_arg0) :=
  StableHlo.after_of_writes_sub hostOps0 _ hostOps0_writes (by decide)

/-! ## The edge list and the last bias reach every later boundary untouched -/

theorem W2_edges (c : Dev nD) : W2 m c (Proc.devRef .tc main_arg1) = m ((c : Thread nD τ).loc main_arg1) :=
  (W2_of_ne m c main_arg1 (by decide)).trans (StableHlo.after_of_writes_sub hostOps0 _ hostOps0_writes (by decide))

theorem W4_lastBias (c : Dev nD) : W4 m c (Proc.devRef .tc main_arg10) = m ((c : Thread nD τ).loc main_arg10) :=
  (W4_of_ne m c main_arg10 (by decide)).trans <| (StableHlo.after_of_writes_sub hostOps1 _ hostOps1_writes (by decide)).trans <|
    (W2_of_ne m c main_arg10 (by decide)).trans (StableHlo.after_of_writes_sub hostOps0 _ hostOps0_writes (by decide))

/-! ## The second host stretch, from stage one's exit contents -/

theorem W3_kd (c : Dev nD) : W3 m c (Proc.devRef .tc main_v18)
    = Host.gather gather_S40000x128_S640000x1_S640000x128_1_0_n_n_0_1_1128
        (columns ![0, 0] Facts₀.slices_S40000x512_S40000x128_0_0 (W2 m c (Proc.devRef .tc main_v3))) (wrapped (targets (W2 m c (Proc.devRef .tc main_arg1)))) := by
  show StableHlo.after hostOps1 (W2 m c) (Proc.devRef .tc main_v18) = _
  after_results_simp <;> rfl

theorem W3_qs (c : Dev nD) : W3 m c (Proc.devRef .tc main_v25)
    = Host.gather gather_S40000x128_S640000x1_S640000x128_1_0_n_n_0_1_1128
        (columns ![0, 128] Facts₀.slices_S40000x512_S40000x128_0_128 (W2 m c (Proc.devRef .tc main_v3))) (wrapped (sources (W2 m c (Proc.devRef .tc main_arg1)))) := by
  show StableHlo.after hostOps1 (W2 m c) (Proc.devRef .tc main_v25) = _
  after_results_simp <;> rfl

theorem W3_vs (c : Dev nD) : W3 m c (Proc.devRef .tc main_v32)
    = Host.gather gather_S40000x128_S640000x1_S640000x128_1_0_n_n_0_1_1128
        (columns ![0, 256] Facts₀.slices_S40000x512_S40000x128_0_256 (W2 m c (Proc.devRef .tc main_v3))) (wrapped (sources (W2 m c (Proc.devRef .tc main_arg1)))) := by
  show StableHlo.after hostOps1 (W2 m c) (Proc.devRef .tc main_v32) = _
  after_results_simp <;> rfl

theorem W3_root (c : Dev nD) : W3 m c (Proc.devRef .tc main_v7)
    = columns ![0, 384] Facts₀.slices_S40000x512_S40000x128_0_384 (W2 m c (Proc.devRef .tc main_v3)) := by
  show StableHlo.after hostOps1 (W2 m c) (Proc.devRef .tc main_v7) = _
  after_results_simp <;> rfl

theorem W3_targets (c : Dev nD) : W3 m c (Proc.devRef .tc main_v11) = targets (W2 m c (Proc.devRef .tc main_arg1)) := by
  show StableHlo.after hostOps1 (W2 m c) (Proc.devRef .tc main_v11) = _
  after_results_simp <;> rfl

/-! ## Stage two's exit, and the last host stretch -/

theorem W4_messages (c : Dev nD) : W4 m c (Proc.devRef .tc main_v33)
    = message (W3 m c (Proc.devRef .tc main_v18)) (W3 m c (Proc.devRef .tc main_v25)) (W3 m c (Proc.devRef .tc main_v32)) :=
  (W4_arr m c 3).trans (stageTwo_final (E3 m) c)

theorem W4_root (c : Dev nD) : W4 m c (Proc.devRef .tc main_v7) = W3 m c (Proc.devRef .tc main_v7) := W4_of_ne m c main_v7 (by decide)
theorem W4_targets (c : Dev nD) : W4 m c (Proc.devRef .tc main_v11) = W3 m c (Proc.devRef .tc main_v11) := W4_of_ne m c main_v11 (by decide)

theorem W5_result (c : Dev nD) : W5 m c (Proc.devRef .tc main_v40)
    = addf (addf (Host.scatterAdd scatter_S40000x128_S640000x1_S640000x128_1_0_0_1
          (broadcastInDim S40000x128 ![] Facts₀.bcast_S_S40000x128 (constant S_ .f32 0x00000000#32))
          (broadcastInDim S640000x1 ![0] Facts₀.bcast_S640000_S640000x1_0 (W4 m c (Proc.devRef .tc main_v11)))
          (W4 m c (Proc.devRef .tc main_v33)))
        (W4 m c (Proc.devRef .tc main_v7)))
      (broadcastInDim S40000x128 ![0, 1] Facts₀.bcast_S1x128_S40000x128_0_1 (broadcastInDim S1x128 ![1] Facts₀.bcast_S128_S1x128_1 (W4 m c (Proc.devRef .tc main_arg10)))) := by
  show StableHlo.after hostOps2 (W4 m c) (Proc.devRef .tc main_v40) = _
  after_results <;> rfl

/-- THE KERNEL'S RESULT, given what stage one leaves: the layer's output from the four column blocks of that array. -/
theorem result_of_stageOne (c : Dev nD) :
    W5 m c (Proc.devRef .tc main_v40)
      = layerOut (columns ![0, 0] Facts₀.slices_S40000x512_S40000x128_0_0 (W2 m c (Proc.devRef .tc main_v3)))
          (columns ![0, 128] Facts₀.slices_S40000x512_S40000x128_0_128 (W2 m c (Proc.devRef .tc main_v3)))
          (columns ![0, 256] Facts₀.slices_S40000x512_S40000x128_0_256 (W2 m c (Proc.devRef .tc main_v3)))
          (columns ![0, 384] Facts₀.slices_S40000x512_S40000x128_0_384 (W2 m c (Proc.devRef .tc main_v3)))
          (m ((c : Thread nD τ).loc main_arg1)) (m ((c : Thread nD τ).loc main_arg10)) := by
  rw [W5_result, W4_messages, W4_root, W4_targets, W4_lastBias, W3_kd, W3_qs, W3_vs, W3_root, W3_targets, W2_edges]
  rfl

end Cert.KernelIdeal.Whole

end
-- ==== Proof.ProjValue.lean ====
/-
  Stage one's result as one function of the arrays it reads.

  The stage works on 20 blocks of 2000 rows. At point t the body loads rows 2000 t … 2000 t + 1999 of the node
  features (2000 × 128), the whole 128 × 512 matrix and the whole 1 × 512 bias row, and stores the 2000 × 512 block
  whose entry (p, q) is the sum over k of feature (p, k) times matrix (k, q), plus bias q: at the ideal values the two
  narrowing format changes are the identity and a matrix product into a zero accumulator is that plain sum.
  Every point writes its block back to rows 2000 t … 2000 t + 1999 of the 40000 × 512 output, and these 20 blocks tile
  the output, so after the stage entry (r, q) of the output is the sum over k of feature (r, k) times matrix (k, q),
  plus bias q — `affine` below, of the three arrays as the stage finds them.

  First one entry of the stored block (`pay_apply`), then the same entry as an entry of `affine` read through the
  block's place in the output (`block_entry`, `flushed_eq`), then the tiling (`mem_blk`, `cover`) and the array
  after the last point (`stageOne_final`).
-/
import proofs.«118037_j13073880449502_1_alg».proof.Proof.StagesIdeal
import Idealize.ShloMosaic.Lib.Pipeline.Value
import Idealize.ShloMosaic.Lib.ValueIdx
import Idealize.ShloMosaic.PureOps.Ideal.Laws

noncomputable section

open scoped BigOperators

namespace Cert.KernelIdeal.ProjValue

open Cert.KernelIdeal Cert.KernelIdeal.Gen Cert.KernelIdeal.Stages
open Idealize.ShloMosaic Idealize.ShloMosaic.TcCoe Idealize.SL.Sem
open Idealize.ShloMosaic.Pipeline (Dat)

/-! ## One entry of the block the body stores -/

/-- On the left operand's row axis the matrix product reads the output's row. -/
theorem lhs_row (i : S2000x512.Idx) (k : dot_S2000x128_S128x512_S2000x512_1_0_0_1_n_n.contr.Idx) :
    (dot_S2000x128_S128x512_S2000x512_1_0_0_1_n_n.lhsIdx i k 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
/-- On the right operand's column axis it reads the output's column. -/
theorem rhs_col (i : S2000x512.Idx) (k : dot_S2000x128_S128x512_S2000x512_1_0_0_1_n_n.contr.Idx) :
    (dot_S2000x128_S128x512_S2000x512_1_0_0_1_n_n.rhsIdx i k 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- Entry (p, q) of the stored block: row p of the feature block times column q of the matrix, summed over the
    128 shared coordinates, plus entry q of the bias row. -/
theorem pay_apply (x0 : Vec Ideal S2000x128 .f32) (x1 : Vec Ideal S128x512 .f32) (x2 : Vec Ideal S1x512 .f32)
    (p : Fin 2000) (q : Fin 512) :
    k0_pay1 (F := Ideal) x0 x1 x2 (ValueIdx.ix2 p q)
      = (∑ k : Fin 128, x0 (ValueIdx.ix2 p k) * x1 (ValueIdx.ix2 k q)) + x2 (ValueIdx.ix2 (0 : Fin 1) q) := by
  unfold k0_pay1
  simp only [shapeCast_self]
  refine congrArg₂ (· + ·) ?_ ?_
  · refine (Ideal.matmul_constant_zero_apply dot_S2000x128_S128x512_S2000x512_1_0_0_1_n_n none _ _ (ValueIdx.ix2 p q)).trans ?_
    rw [← Equiv.sum_comp (ValueIdx.contrEquiv1 dot_S2000x128_S128x512_S2000x512_1_0_0_1_n_n 128 rfl rfl).symm]
    refine Finset.sum_congr rfl fun k _ => ?_
    have hk := ValueIdx.contrEquiv1_symm_val dot_S2000x128_S128x512_S2000x512_1_0_0_1_n_n 128 rfl rfl k
    have el : dot_S2000x128_S128x512_S2000x512_1_0_0_1_n_n.lhsIdx (ValueIdx.ix2 p q) ((ValueIdx.contrEquiv1 dot_S2000x128_S128x512_S2000x512_1_0_0_1_n_n 128 rfl rfl).symm k) = ValueIdx.ix2 p k := funext fun a => Fin.ext (by
      match a with
      | ⟨0, _⟩ => exact lhs_row _ _
      | ⟨1, _⟩ => exact (dot_S2000x128_S128x512_S2000x512_1_0_0_1_n_n.lhsIdx_val_of_single rfl _ _).trans hk)
    have er : dot_S2000x128_S128x512_S2000x512_1_0_0_1_n_n.rhsIdx (ValueIdx.ix2 p q) ((ValueIdx.contrEquiv1 dot_S2000x128_S128x512_S2000x512_1_0_0_1_n_n 128 rfl rfl).symm k) = ValueIdx.ix2 k q := funext fun a => Fin.ext (by
      match a with
      | ⟨0, _⟩ => exact (dot_S2000x128_S128x512_S2000x512_1_0_0_1_n_n.rhsIdx_val_of_single rfl _ _).trans hk
      | ⟨1, _⟩ => exact rhs_col _ _)
    show x0 _ * x1 _ = _
    rw [el, er]
  · exact broadcastTo_apply _ _ (ValueIdx.ix2 p q) (ValueIdx.ix2 (0 : Fin 1) q) (fun a => by
      match a with
      | ⟨0, _⟩ => rfl
      | ⟨1, _⟩ => show q.val = if (512 : Nat) = 1 then 0 else q.val; rw [if_neg (by decide)])

/-! ## The stage's result, index by index -/

/-- features times matrix plus the bias row, index by index -/
def affine (x : S40000x128.Idx → EReal) (w : S128x512.Idx → EReal) (b : S1x512.Idx → EReal) : S40000x512.Idx → EReal :=
  fun i => (∑ k : Fin 128, x (ValueIdx.ix2 (⟨(i 0).val, (i 0).isLt⟩ : Fin 40000) k) * w (ValueIdx.ix2 k (⟨(i 1).val, (i 1).isLt⟩ : Fin 512)))
           + b (ValueIdx.ix2 (0 : Fin 1) (⟨(i 1).val, (i 1).isLt⟩ : Fin 512))

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: at point t the feature window and the output window are at
    block (t, 0); the matrix and the bias row are at their one block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry j of what the body stores at point t is entry "j moved into block (t, 0)" of affine of the three arrays:
    row p of the feature block is row 2000 t + p of the features, and the matrix and the bias row are loaded whole. -/
theorem block_entry (c : Dev nD) (t : Fin cfg0.N) (j : S2000x512.Idx) :
    k0_pay1 (F := Ideal) (blockP V c 0 t) (blockP V c 1 t) (blockP V c 2 t) j
      = affine (V c main_arg0) (V c main_v0) (V c main_v2) (((cfg0.win 3).blk t).view.emb j) := by
  obtain ⟨p, q, rfl⟩ : ∃ (p : Fin 2000) (q : Fin 512), j = ValueIdx.ix2 p q := ⟨j 0, j 1, ValueIdx.eq_ix2 j⟩
  obtain ⟨e00, e01, e10, e11, e20, e21, e30, e31⟩ := idx_facts t
  refine (pay_apply _ _ _ p q).trans ?_
  unfold affine
  refine congrArg₂ (· + ·) (Finset.sum_congr rfl fun k _ => congrArg₂ (· * ·) ?_ ?_) ?_
  · show V c main_arg0 (((cfg0.win 0).blk t).view.emb (ValueIdx.ix2 p k)) = V c main_arg0 _
    refine congrArg _ (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  · show V c main_v0 (((cfg0.win 1).blk t).view.emb (ValueIdx.ix2 k q)) = V c main_v0 _
    refine congrArg _ (funext fun a => Fin.ext ?_)
    match a with
    | ⟨0, _⟩ => show win0_1.index t (0 : Fin 2) * 128 + 1 * k.val = k.val; omega
    | ⟨1, _⟩ => show win0_1.index t (1 : Fin 2) * 512 + 1 * q.val = win0_3.index t (1 : Fin 2) * 512 + 1 * q.val; omega
  · show V c main_v2 (((cfg0.win 2).blk t).view.emb (ValueIdx.ix2 (0 : Fin 1) q)) = V c main_v2 _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega

/-- What point t writes back is block (t, 0) of affine of the three arrays as the stage finds them. -/
theorem flushed_eq (c : Dev nD) (t : Fin cfg0.N) :
    (datP (F := Ideal) V c).flushed 3 t
      = ((cfg0.win 3).blk t).view.read (Elt Ideal) (affine (V c main_arg0) (V c main_v0) (V c main_v2)) := by
  show (cfg0.win 3).cut (grid0.coords t) ((datP V c).after 3 t) = _
  rw [datP_after3]
  unfold projBlock
  rw [View.canon_unit_zero hz]
  simp only [View.ld_unit_zero (S := S2000x128) hz, View.ld_unit_zero (S := S128x512) hz, View.ld_unit_zero (S := S1x512) hz]
  funext j
  exact block_entry V c t j

/-- An index of the output array is in point t's block iff each coordinate is in the block's range on its axis. -/
theorem mem_blk (t : Fin cfg0.N) (i : S40000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v3).slice (win0_3.rect t)).set ↔ _
  rw [View.set_slice_whole, Rect.mem_set_unit]
  exact Iff.rfl

/-- The 20 blocks of 2000 rows tile the 40000 rows: row r is in the block of point r / 2000, and every point writes back. -/
theorem cover (i : S40000x512.Idx) :
    ∃ t : Fin cfg0.N, (cfg0.win 3).flush t = true ∧ i ∈ ((cfg0.win 3).blk t).view.set := by
  have hi0 : (i 0).val < 40000 := (i 0).isLt
  have hi1 : (i 1).val < 512 := (i 1).isLt
  have hN : cfg0.N = 20 := by decide
  obtain ⟨t, ht⟩ : ∃ t : Fin cfg0.N, t.val = (i 0).val / 2000 := ⟨⟨(i 0).val / 2000, by rw [hN]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 512 ≤ (i 1).val ∧ (i 1).val < win0_3.index t (1 : Fin 2) * 512 + 512; omega

/-- After stage one the output array holds affine of the features, the matrix and the bias row as the stage found them. -/
theorem stageOne_final (c : Dev nD) :
    (Cert.KernelIdeal.Stages.datP (F := Ideal) V c).arrAt 3 cfg0.N = affine (V c main_arg0) (V c main_v0) (V c main_v2) :=
  (datP (F := Ideal) V c).arrAt_eq_of_cover 3 (affine (V c main_arg0) (V c main_v0) (V c main_v2))
    (fun t _ => flushed_eq V c t) cover

end Cert.KernelIdeal.ProjValue

end
-- ==== Proof.Columns.lean ====
/-
  The one identity that joins the two programs: over the extended reals, columns `128 a … 128 a + 127` of
  `x·[W₀ | W₁ | W₂ | W₃] + [b₀ | b₁ | b₂ | b₃]` are `x·W_a + b_a`.

  Entry `(r, 128 a + j)` of the wide product is the sum over `k` of `x (r, k)` times entry `(k, 128 a + j)` of the wide
  matrix, plus entry `128 a + j` of the wide bias; the wide matrix's entry there is `W_a (k, j)` and the wide bias's is
  `b_a j`, because a concatenation read at an index reads the piece whose span holds the index. No law of arithmetic is
  used: the two sides are the same sum of the same products.
-/
import proofs.«118037_j13073880449502_1_alg».proof.Proof.KernelValue
import Idealize.ShloMosaic.Lib.Pipeline.Value
import Idealize.ShloMosaic.Lib.ValueIdx
import Idealize.ShloMosaic.PureOps.Ideal.Laws

set_option maxRecDepth 16384

noncomputable section

namespace Cert.KernelIdeal.Columns

open Cert.KernelIdeal Cert.KernelIdeal.Whole
open Idealize.ShloMosaic Idealize.ShloMosaic.ValueIdx
open scoped BigOperators

/-- Rows of `x` times a 128 × 512 matrix, plus a 1 × 512 row, index by index. -/
def rowsTimes (x : S40000x128.Idx → EReal) (w : S128x512.Idx → EReal) (b : S1x512.Idx → EReal) : S40000x512.Idx → EReal :=
  fun i => (∑ k : Fin 128, x (ix2 (⟨(i 0).val, (i 0).isLt⟩ : Fin 40000) k) * w (ix2 k (⟨(i 1).val, (i 1).isLt⟩ : Fin 512)))
    + b (ix2 (0 : Fin 1) (⟨(i 1).val, (i 1).isLt⟩ : Fin 512))

/-- Rows of `x` times one 128 × 128 matrix, plus one bias, index by index. -/
def rowsTimesOne (x : S40000x128.Idx → EReal) (w : S128x128.Idx → EReal) (b : S128.Idx → EReal) : S40000x128.Idx → EReal :=
  fun i => (∑ k : Fin 128, x (ix2 (⟨(i 0).val, (i 0).isLt⟩ : Fin 40000) k) * w (ix2 k (⟨(i 1).val, (i 1).isLt⟩ : Fin 128)))
    + b (ix1 (⟨(i 1).val, (i 1).isLt⟩ : Fin 128))

/-- Entry `(k, 128 a + j)` of the four matrices side by side is entry `(k, j)` of the `a`-th. -/
theorem wideMatrix_apply (W : Fin 4 → (S128x128.Idx → EReal)) (a : Fin 4) (k j : Fin 128) (hlt : 128 * a.val + j.val < 512) :
    wideMatrix (F := Ideal) (W 0) (W 1) (W 2) (W 3) (ix2 k (⟨128 * a.val + j.val, hlt⟩ : Fin 512)) = W a (ix2 k j) := by
  unfold wideMatrix
  have hoff : ∀ b : Fin S128x128.rank, b.cast (rfl : S128x128.rank = S128x512.rank) ≠ (1 : Fin 2) →
      ((ix2 k j : S128x128.Idx) b).val = ((ix2 k (⟨128 * a.val + j.val, hlt⟩ : Fin 512) : S128x512.Idx) (b.cast rfl)).val := fun b hb => by
    match b with
    | ⟨0, _⟩ => rfl
    | ⟨1, _⟩ => exact absurd rfl hb
  fin_cases a
  · refine concatenate_apply_piece (1 : Fin 2) _ _ (ix2 k (⟨_, hlt⟩ : Fin 512)) 0 ?_ S128x128 (W 0) ?_ rfl 0 ?_ (ix2 k j) hoff ?_
    · show (0 : Nat) < 4; decide
    · rfl
    · rfl
    · show 0 + j.val = 128 * 0 + j.val; omega
  · refine concatenate_apply_piece (1 : Fin 2) _ _ (ix2 k (⟨_, hlt⟩ : Fin 512)) 1 ?_ S128x128 (W 1) ?_ rfl 128 ?_ (ix2 k j) hoff ?_
    · show (1 : Nat) < 4; decide
    · rfl
    · rfl
    · show 128 + j.val = 128 * 1 + j.val; omega
  · refine concatenate_apply_piece (1 : Fin 2) _ _ (ix2 k (⟨_, hlt⟩ : Fin 512)) 2 ?_ S128x128 (W 2) ?_ rfl 256 ?_ (ix2 k j) hoff ?_
    · show (2 : Nat) < 4; decide
    · rfl
    · rfl
    · show 256 + j.val = 128 * 2 + j.val; omega
  · refine concatenate_apply_piece (1 : Fin 2) _ _ (ix2 k (⟨_, hlt⟩ : Fin 512)) 3 ?_ S128x128 (W 3) ?_ rfl 384 ?_ (ix2 k j) hoff ?_
    · show (3 : Nat) < 4; decide
    · rfl
    · rfl
    · show 384 + j.val = 128 * 3 + j.val; omega

/-- Entry `128 a + j` of the four biases end to end, read as a 1 × 512 row, is entry `j` of the `a`-th. -/
theorem wideBias_apply (B : Fin 4 → (S128.Idx → EReal)) (a : Fin 4) (j : Fin 128) (hlt : 128 * a.val + j.val < 512) :
    wideBias (F := Ideal) (B 0) (B 1) (B 2) (B 3) (ix2 (0 : Fin 1) (⟨128 * a.val + j.val, hlt⟩ : Fin 512)) = B a (ix1 j) := by
  unfold wideBias
  refine (shapeCast_apply _ _ (ix2 (0 : Fin 1) (⟨128 * a.val + j.val, hlt⟩ : Fin 512)) (ix1 (⟨128 * a.val + j.val, hlt⟩ : Fin 512)) ?_).trans ?_
  · rw [Shape.rowMajor_val_one, Shape.rowMajor_val_two]
    show 128 * a.val + j.val = 0 * 512 + (128 * a.val + j.val)
    omega
  have hoff : ∀ b : Fin S128.rank, b.cast (rfl : S128.rank = S512.rank) ≠ (0 : Fin 1) →
      ((ix1 j : S128.Idx) b).val = ((ix1 (⟨128 * a.val + j.val, hlt⟩ : Fin 512) : S512.Idx) (b.cast rfl)).val := fun b hb => by
    match b with
    | ⟨0, _⟩ => exact absurd rfl hb
  fin_cases a
  · refine concatenate_apply_piece (0 : Fin 1) _ _ (ix1 (⟨_, hlt⟩ : Fin 512)) 0 ?_ S128 (B 0) ?_ rfl 0 ?_ (ix1 j) hoff ?_
    · show (0 : Nat) < 4; decide
    · rfl
    · rfl
    · show 0 + j.val = 128 * 0 + j.val; omega
  · refine concatenate_apply_piece (0 : Fin 1) _ _ (ix1 (⟨_, hlt⟩ : Fin 512)) 1 ?_ S128 (B 1) ?_ rfl 128 ?_ (ix1 j) hoff ?_
    · show (1 : Nat) < 4; decide
    · rfl
    · rfl
    · show 128 + j.val = 128 * 1 + j.val; omega
  · refine concatenate_apply_piece (0 : Fin 1) _ _ (ix1 (⟨_, hlt⟩ : Fin 512)) 2 ?_ S128 (B 2) ?_ rfl 256 ?_ (ix1 j) hoff ?_
    · show (2 : Nat) < 4; decide
    · rfl
    · rfl
    · show 256 + j.val = 128 * 2 + j.val; omega
  · refine concatenate_apply_piece (0 : Fin 1) _ _ (ix1 (⟨_, hlt⟩ : Fin 512)) 3 ?_ S128 (B 3) ?_ rfl 384 ?_ (ix1 j) hoff ?_
    · show (3 : Nat) < 4; decide
    · rfl
    · rfl
    · show 384 + j.val = 128 * 3 + j.val; omega

/-- Columns `128 a … 128 a + 127` of the wide product are the `a`-th product. -/
theorem columns_rowsTimes (x : S40000x128.Idx → EReal) (W : Fin 4 → (S128x128.Idx → EReal)) (B : Fin 4 → (S128.Idx → EReal)) (a : Fin 4)
    (off : Fin 2 → Nat) (h0 : off 0 = 0) (h1 : off 1 = 128 * a.val) (hs : S40000x512.Slices off S40000x128) :
    columns (F := Ideal) off hs (rowsTimes x (wideMatrix (F := Ideal) (W 0) (W 1) (W 2) (W 3)) (wideBias (F := Ideal) (B 0) (B 1) (B 2) (B 3)))
      = rowsTimesOne x (W a) (B a) := by
  funext i
  have hi0 : (i 0).val < 40000 := (i 0).isLt
  have hi1 : (i 1).val < 128 := (i 1).isLt
  have ha : a.val < 4 := a.isLt
  have hlt : 128 * a.val + (⟨(i 1).val, hi1⟩ : Fin 128).val < 512 := by show 128 * a.val + (i 1).val < 512; omega
  refine (extractStridedSlice_apply off _ hs i (ix2 (⟨(i 0).val, hi0⟩ : Fin 40000) (⟨128 * a.val + (⟨(i 1).val, hi1⟩ : Fin 128).val, hlt⟩ : Fin 512)) (fun b => ?_)).trans ?_
  · match b with
    | ⟨0, _⟩ => show (i 0).val = off 0 + (i 0).val; omega
    | ⟨1, _⟩ => show 128 * a.val + (i 1).val = off 1 + (i 1).val; omega
  · exact congrArg₂ (· + ·)
      (Finset.sum_congr rfl fun k _ => congrArg (x (ix2 (⟨(i 0).val, hi0⟩ : Fin 40000) k) * ·) (wideMatrix_apply W a k ⟨(i 1).val, hi1⟩ hlt))
      (wideBias_apply B a ⟨(i 1).val, hi1⟩ hlt)

end Cert.KernelIdeal.Columns

end
-- ==== Proof.RefValue.lean ====
/-
  The reference's result in the kernel's words, over the extended reals.

  The reference forms four products `x·W + b` (each a sum over `k`, plus the bias broadcast along the rows), gathers
  rows of three of them, forms the gate as `1 / (1 + exp (−(k_dst + q_src)))`, multiplies by the gathered values,
  scatter-adds by the raw target index into zeros, and adds the fourth product and the last bias. Over the extended reals
  `logistic s` IS `1 / (1 + exp (−s))` — with the float pattern of 1.0 read as the real number one — so the reference's
  result is the same `layerOut` of its four products that the kernel's result is of its four column blocks.
-/
import proofs.«118037_j13073880449502_1_alg».proof.Proof.Gen.ReferenceIdeal.Read
import proofs.«118037_j13073880449502_1_alg».proof.Proof.Columns
import Idealize.ShloMosaic.Lib.IdealHost

set_option maxRecDepth 16384

noncomputable section

namespace Cert.ReferenceIdeal.InKernelWords

open Cert.ReferenceIdeal Cert.ReferenceIdeal.Gen Cert.ReferenceIdeal.Read
open Idealize.ShloMosaic Idealize.ShloMosaic.ValueIdx
open scoped BigOperators

/-! ## The four products, index by index -/

theorem product_k (x0 : (⟨S40000x128, .f32⟩ : BufTy).Contents (Elt Ideal)) (x2 : (⟨S128x128, .f32⟩ : BufTy).Contents (Elt Ideal))
    (x3 : (⟨S128, .f32⟩ : BufTy).Contents (Elt Ideal)) :
    val_main_v3 (F := Ideal) x0 x2 x3 = Cert.KernelIdeal.Columns.rowsTimesOne x0 x2 x3 := by
  funext i
  rw [val_main_v3_apply, val_main_v0_apply, val_main_v2_apply, val_main_v1_apply]
  refine congrArg₂ (· + ·) (Finset.sum_congr rfl fun k _ => congrArg₂ (· * ·) (congrArg x0 ?_) (congrArg x2 ?_)) (congrArg x3 ?_)
  · funext a; match a with | ⟨0, _⟩ => rfl | ⟨1, _⟩ => rfl
  · funext a; match a with | ⟨0, _⟩ => rfl | ⟨1, _⟩ => rfl
  · funext a; match a with | ⟨0, _⟩ => rfl

theorem product_q (x0 : (⟨S40000x128, .f32⟩ : BufTy).Contents (Elt Ideal)) (x4 : (⟨S128x128, .f32⟩ : BufTy).Contents (Elt Ideal))
    (x5 : (⟨S128, .f32⟩ : BufTy).Contents (Elt Ideal)) :
    val_main_v7 (F := Ideal) x0 x4 x5 = Cert.KernelIdeal.Columns.rowsTimesOne x0 x4 x5 := by
  funext i
  rw [val_main_v7_apply, val_main_v4_apply, val_main_v6_apply, val_main_v5_apply]
  refine congrArg₂ (· + ·) (Finset.sum_congr rfl fun k _ => congrArg₂ (· * ·) (congrArg x0 ?_) (congrArg x4 ?_)) (congrArg x5 ?_)
  · funext a; match a with | ⟨0, _⟩ => rfl | ⟨1, _⟩ => rfl
  · funext a; match a with | ⟨0, _⟩ => rfl | ⟨1, _⟩ => rfl
  · funext a; match a with | ⟨0, _⟩ => rfl

theorem product_v (x0 : (⟨S40000x128, .f32⟩ : BufTy).Contents (Elt Ideal)) (x6 : (⟨S128x128, .f32⟩ : BufTy).Contents (Elt Ideal))
    (x7 : (⟨S128, .f32⟩ : BufTy).Contents (Elt Ideal)) :
    val_main_v11 (F := Ideal) x0 x6 x7 = Cert.KernelIdeal.Columns.rowsTimesOne x0 x6 x7 := by
  funext i
  rw [val_main_v11_apply, val_main_v8_apply, val_main_v10_apply, val_main_v9_apply]
  refine congrArg₂ (· + ·) (Finset.sum_congr rfl fun k _ => congrArg₂ (· * ·) (congrArg x0 ?_) (congrArg x6 ?_)) (congrArg x7 ?_)
  · funext a; match a with | ⟨0, _⟩ => rfl | ⟨1, _⟩ => rfl
  · funext a; match a with | ⟨0, _⟩ => rfl | ⟨1, _⟩ => rfl
  · funext a; match a with | ⟨0, _⟩ => rfl

theorem product_root (x0 : (⟨S40000x128, .f32⟩ : BufTy).Contents (Elt Ideal)) (x8 : (⟨S128x128, .f32⟩ : BufTy).Contents (Elt Ideal))
    (x9 : (⟨S128, .f32⟩ : BufTy).Contents (Elt Ideal)) :
    val_main_v51 (F := Ideal) x0 x8 x9 = Cert.KernelIdeal.Columns.rowsTimesOne x0 x8 x9 := by
  funext i
  rw [val_main_v51_apply, val_main_v48_apply, val_main_v50_apply, val_main_v49_apply]
  refine congrArg₂ (· + ·) (Finset.sum_congr rfl fun k _ => congrArg₂ (· * ·) (congrArg x0 ?_) (congrArg x8 ?_)) (congrArg x9 ?_)
  · funext a; match a with | ⟨0, _⟩ => rfl | ⟨1, _⟩ => rfl
  · funext a; match a with | ⟨0, _⟩ => rfl | ⟨1, _⟩ => rfl
  · funext a; match a with | ⟨0, _⟩ => rfl

/-! ## The gate -/

/-- Over the extended reals the one-step `logistic (a + b)` times `c` is `(1 / (1 + exp (−(a + b)))) · c`, the ones being
    the float pattern of 1.0 broadcast over the array. -/
theorem gate_expansion (A B C : (⟨S640000x128, .f32⟩ : BufTy).Contents (Elt Ideal)) :
    Cert.KernelIdeal.GateValue.message (F := Ideal) A B C
      = (mulf (F := Ideal) (Host.divf (F := Ideal) (broadcastInDim S640000x128 ![] bcast_S_S640000x128 (constant (F := Ideal) S_ .f32 0x3F800000#32))
          (addf (F := Ideal) (broadcastInDim S640000x128 ![] bcast_S_S640000x128 (constant (F := Ideal) S_ .f32 0x3F800000#32))
            (Host.exp (F := Ideal) (Host.negf (F := Ideal) (addf (F := Ideal) A B))))) C : (⟨S640000x128, .f32⟩ : BufTy).Contents (Elt Ideal)) := by
  funext i
  show FloatOps.mulf (FloatOps.logistic (FloatOps.addf (A i) (B i))) (C i)
    = FloatOps.mulf (FloatOps.hostDivf (Ideal.ofBits .f32 0x3F800000#32)
        (FloatOps.addf (Ideal.ofBits .f32 0x3F800000#32) (FloatOps.hostUnary .exp (FloatOps.hostNegf (FloatOps.addf (A i) (B i)))))) (C i)
  rw [Ideal.ofBits_one_f32]
  rfl

/-! ## The whole reference -/

/-- The reference's result is `layerOut` of its four products, the edge list and the last bias. -/
theorem result_eq (x0 : (⟨S40000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 x10 : (⟨S128, .f32⟩ : BufTy).Contents (Elt Ideal)) :
    val_main_v55 (F := Ideal) x0 x1 x2 x3 x4 x5 x6 x7 x8 x9 x10
      = Cert.KernelIdeal.Whole.layerOut (F := Ideal) (val_main_v3 (F := Ideal) x0 x2 x3) (val_main_v7 (F := Ideal) x0 x4 x5)
          (val_main_v11 (F := Ideal) x0 x6 x7) (val_main_v51 (F := Ideal) x0 x8 x9) x1 x10 := by
  unfold Cert.KernelIdeal.Whole.layerOut
  rw [gate_expansion]
  rfl

end Cert.ReferenceIdeal.InKernelWords

end
-- ==== Proof.Joined.lean ====
/-
  The two programs end with the same result over the extended reals.

  The kernel's result buffer holds `layerOut` of the four column blocks of what stage one leaves; stage one leaves
  `x·[Wk | Wq | Wv | Ws] + [bk | bq | bv | bs]`; its column blocks are the four products `x·W + b`. The reference's result
  is `layerOut` of its own four products, which are the same sums. So both results are one term of the argument arrays.
-/
import proofs.«118037_j13073880449502_1_alg».proof.Defs
import proofs.«118037_j13073880449502_1_alg».proof.Proof.RunIdeal
import proofs.«118037_j13073880449502_1_alg».proof.Proof.KernelValue
import proofs.«118037_j13073880449502_1_alg».proof.Proof.ProjValue
import proofs.«118037_j13073880449502_1_alg».proof.Proof.Columns
import proofs.«118037_j13073880449502_1_alg».proof.Proof.RefValue
import proofs.«118037_j13073880449502_1_alg».proof.Proof.Gen.ReferenceIdeal.Run
import proofs.«118037_j13073880449502_1_alg».proof.Proof.Gen.ReferenceIdeal.Read
import proofs.«118037_j13073880449502_1_alg».proof.Proof.Gen.Pre_finite_inputs

set_option maxRecDepth 16384

noncomputable section

namespace Cert.Proof.Joined

open Idealize.ShloMosaic Idealize.ShloMosaic.TcCoe Idealize.SL.Sem
open Cert.KernelIdeal Cert.KernelIdeal.Gen Cert.KernelIdeal.Run Cert.KernelIdeal.Whole Cert.KernelIdeal.Columns

variable (m : (ℓ : Loc nD τ sig) → Buf (Elt Ideal) ℓ)

/-- What stage one leaves: the wide product of the features with the four matrices side by side, plus the wide bias. -/
theorem stageOne_leaves (c : Dev nD) :
    W2 m c (Proc.devRef .tc main_v3)
      = rowsTimes (m ((c : Thread nD τ).loc main_arg0))
          (wideMatrix (F := Ideal) (m ((c : Thread nD τ).loc main_arg2)) (m ((c : Thread nD τ).loc main_arg4)) (m ((c : Thread nD τ).loc main_arg6)) (m ((c : Thread nD τ).loc main_arg8)))
          (wideBias (F := Ideal) (m ((c : Thread nD τ).loc main_arg3)) (m ((c : Thread nD τ).loc main_arg5)) (m ((c : Thread nD τ).loc main_arg7)) (m ((c : Thread nD τ).loc main_arg9))) := by
  refine (W2_arr m c 3).trans ((Cert.KernelIdeal.ProjValue.stageOne_final (E1 m) c).trans ?_)
  show Cert.KernelIdeal.ProjValue.affine (W1 m c (Proc.devRef .tc main_arg0)) (W1 m c (Proc.devRef .tc main_v0)) (W1 m c (Proc.devRef .tc main_v2)) = _
  rw [W1_features, W1_matrix, W1_bias]
  rfl

/-- THE KERNEL'S RESULT: the layer's output from the four products `x·W + b`, the edge list and the last bias. -/
theorem kernel_result (c : Dev nD) :
    W5 m c (Proc.devRef .tc main_v40)
      = layerOut (F := Ideal)
          (rowsTimesOne (m ((c : Thread nD τ).loc main_arg0)) (m ((c : Thread nD τ).loc main_arg2)) (m ((c : Thread nD τ).loc main_arg3)))
          (rowsTimesOne (m ((c : Thread nD τ).loc main_arg0)) (m ((c : Thread nD τ).loc main_arg4)) (m ((c : Thread nD τ).loc main_arg5)))
          (rowsTimesOne (m ((c : Thread nD τ).loc main_arg0)) (m ((c : Thread nD τ).loc main_arg6)) (m ((c : Thread nD τ).loc main_arg7)))
          (rowsTimesOne (m ((c : Thread nD τ).loc main_arg0)) (m ((c : Thread nD τ).loc main_arg8)) (m ((c : Thread nD τ).loc main_arg9)))
          (m ((c : Thread nD τ).loc main_arg1)) (m ((c : Thread nD τ).loc main_arg10)) := by
  rw [result_of_stageOne, stageOne_leaves]
  have c0 : columns (F := Ideal) ![0, 0] Facts₀.slices_S40000x512_S40000x128_0_0 (rowsTimes (m ((c : Thread nD τ).loc main_arg0)) (wideMatrix (F := Ideal) (m ((c : Thread nD τ).loc main_arg2)) (m ((c : Thread nD τ).loc main_arg4)) (m ((c : Thread nD τ).loc main_arg6)) (m ((c : Thread nD τ).loc main_arg8))) (wideBias (F := Ideal) (m ((c : Thread nD τ).loc main_arg3)) (m ((c : Thread nD τ).loc main_arg5)) (m ((c : Thread nD τ).loc main_arg7)) (m ((c : Thread nD τ).loc main_arg9))))
      = rowsTimesOne (m ((c : Thread nD τ).loc main_arg0)) (m ((c : Thread nD τ).loc main_arg2)) (m ((c : Thread nD τ).loc main_arg3)) :=
    columns_rowsTimes (m ((c : Thread nD τ).loc main_arg0))
      ![m ((c : Thread nD τ).loc main_arg2), m ((c : Thread nD τ).loc main_arg4), m ((c : Thread nD τ).loc main_arg6), m ((c : Thread nD τ).loc main_arg8)]
      ![m ((c : Thread nD τ).loc main_arg3), m ((c : Thread nD τ).loc main_arg5), m ((c : Thread nD τ).loc main_arg7), m ((c : Thread nD τ).loc main_arg9)]
      0 ![0, 0] rfl rfl Facts₀.slices_S40000x512_S40000x128_0_0
  have c1 : columns (F := Ideal) ![0, 128] Facts₀.slices_S40000x512_S40000x128_0_128 (rowsTimes (m ((c : Thread nD τ).loc main_arg0)) (wideMatrix (F := Ideal) (m ((c : Thread nD τ).loc main_arg2)) (m ((c : Thread nD τ).loc main_arg4)) (m ((c : Thread nD τ).loc main_arg6)) (m ((c : Thread nD τ).loc main_arg8))) (wideBias (F := Ideal) (m ((c : Thread nD τ).loc main_arg3)) (m ((c : Thread nD τ).loc main_arg5)) (m ((c : Thread nD τ).loc main_arg7)) (m ((c : Thread nD τ).loc main_arg9))))
      = rowsTimesOne (m ((c : Thread nD τ).loc main_arg0)) (m ((c : Thread nD τ).loc main_arg4)) (m ((c : Thread nD τ).loc main_arg5)) :=
    columns_rowsTimes (m ((c : Thread nD τ).loc main_arg0))
      ![m ((c : Thread nD τ).loc main_arg2), m ((c : Thread nD τ).loc main_arg4), m ((c : Thread nD τ).loc main_arg6), m ((c : Thread nD τ).loc main_arg8)]
      ![m ((c : Thread nD τ).loc main_arg3), m ((c : Thread nD τ).loc main_arg5), m ((c : Thread nD τ).loc main_arg7), m ((c : Thread nD τ).loc main_arg9)]
      1 ![0, 128] rfl rfl Facts₀.slices_S40000x512_S40000x128_0_128
  have c2 : columns (F := Ideal) ![0, 256] Facts₀.slices_S40000x512_S40000x128_0_256 (rowsTimes (m ((c : Thread nD τ).loc main_arg0)) (wideMatrix (F := Ideal) (m ((c : Thread nD τ).loc main_arg2)) (m ((c : Thread nD τ).loc main_arg4)) (m ((c : Thread nD τ).loc main_arg6)) (m ((c : Thread nD τ).loc main_arg8))) (wideBias (F := Ideal) (m ((c : Thread nD τ).loc main_arg3)) (m ((c : Thread nD τ).loc main_arg5)) (m ((c : Thread nD τ).loc main_arg7)) (m ((c : Thread nD τ).loc main_arg9))))
      = rowsTimesOne (m ((c : Thread nD τ).loc main_arg0)) (m ((c : Thread nD τ).loc main_arg6)) (m ((c : Thread nD τ).loc main_arg7)) :=
    columns_rowsTimes (m ((c : Thread nD τ).loc main_arg0))
      ![m ((c : Thread nD τ).loc main_arg2), m ((c : Thread nD τ).loc main_arg4), m ((c : Thread nD τ).loc main_arg6), m ((c : Thread nD τ).loc main_arg8)]
      ![m ((c : Thread nD τ).loc main_arg3), m ((c : Thread nD τ).loc main_arg5), m ((c : Thread nD τ).loc main_arg7), m ((c : Thread nD τ).loc main_arg9)]
      2 ![0, 256] rfl rfl Facts₀.slices_S40000x512_S40000x128_0_256
  have c3 : columns (F := Ideal) ![0, 384] Facts₀.slices_S40000x512_S40000x128_0_384 (rowsTimes (m ((c : Thread nD τ).loc main_arg0)) (wideMatrix (F := Ideal) (m ((c : Thread nD τ).loc main_arg2)) (m ((c : Thread nD τ).loc main_arg4)) (m ((c : Thread nD τ).loc main_arg6)) (m ((c : Thread nD τ).loc main_arg8))) (wideBias (F := Ideal) (m ((c : Thread nD τ).loc main_arg3)) (m ((c : Thread nD τ).loc main_arg5)) (m ((c : Thread nD τ).loc main_arg7)) (m ((c : Thread nD τ).loc main_arg9))))
      = rowsTimesOne (m ((c : Thread nD τ).loc main_arg0)) (m ((c : Thread nD τ).loc main_arg8)) (m ((c : Thread nD τ).loc main_arg9)) :=
    columns_rowsTimes (m ((c : Thread nD τ).loc main_arg0))
      ![m ((c : Thread nD τ).loc main_arg2), m ((c : Thread nD τ).loc main_arg4), m ((c : Thread nD τ).loc main_arg6), m ((c : Thread nD τ).loc main_arg8)]
      ![m ((c : Thread nD τ).loc main_arg3), m ((c : Thread nD τ).loc main_arg5), m ((c : Thread nD τ).loc main_arg7), m ((c : Thread nD τ).loc main_arg9)]
      3 ![0, 384] rfl rfl Facts₀.slices_S40000x512_S40000x128_0_384
  rw [c0, c1, c2, c3]

/-- At the extended reals the kernel program and the reference, from memories agreeing on the arguments, both run to
    the end and leave the same result array — `layerOut` of the four products — and their arguments unchanged. -/
theorem algebraic : Cert.algebraic_KernelIdeal_ReferenceIdeal := by
  intro m ρ m' ρ' _ hagree
  refine ⟨fun c => W5 m c (Proc.devRef .tc main_v40), ?_, ?_⟩
  · exact (θ_run Cert.KernelIdeal.defs _ _).mono (fun r h c =>
      ⟨h c _ (mem_uc main_v40 (by decide)),
       (h c _ (mem_uc main_arg0 (by decide))).trans (W5_features m c),
       (h c _ (mem_uc main_arg1 (by decide))).trans (W5_untouched m c main_arg1 (by decide) (by decide) (by decide) (by decide) (by decide)),
       (h c _ (mem_uc main_arg2 (by decide))).trans (W5_untouched m c main_arg2 (by decide) (by decide) (by decide) (by decide) (by decide)),
       (h c _ (mem_uc main_arg3 (by decide))).trans (W5_untouched m c main_arg3 (by decide) (by decide) (by decide) (by decide) (by decide)),
       (h c _ (mem_uc main_arg4 (by decide))).trans (W5_untouched m c main_arg4 (by decide) (by decide) (by decide) (by decide) (by decide)),
       (h c _ (mem_uc main_arg5 (by decide))).trans (W5_untouched m c main_arg5 (by decide) (by decide) (by decide) (by decide) (by decide)),
       (h c _ (mem_uc main_arg6 (by decide))).trans (W5_untouched m c main_arg6 (by decide) (by decide) (by decide) (by decide) (by decide)),
       (h c _ (mem_uc main_arg7 (by decide))).trans (W5_untouched m c main_arg7 (by decide) (by decide) (by decide) (by decide) (by decide)),
       (h c _ (mem_uc main_arg8 (by decide))).trans (W5_untouched m c main_arg8 (by decide) (by decide) (by decide) (by decide) (by decide)),
       (h c _ (mem_uc main_arg9 (by decide))).trans (W5_untouched m c main_arg9 (by decide) (by decide) (by decide) (by decide) (by decide)),
       (h c _ (mem_uc main_arg10 (by decide))).trans (W5_untouched m c main_arg10 (by decide) (by decide) (by decide) (by decide) (by decide))⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]
    rw [Cert.ReferenceIdeal.InKernelWords.result_eq, Cert.ReferenceIdeal.InKernelWords.product_k, Cert.ReferenceIdeal.InKernelWords.product_q,
      Cert.ReferenceIdeal.InKernelWords.product_v, Cert.ReferenceIdeal.InKernelWords.product_root]
    exact (kernel_result m c).symm

end Cert.Proof.Joined

end
-- ==== Proof.lean ====
/-
  The certificate of a gated graph convolution: a kernel program in two stages against a plain reference.

  Both programs compute, for node features `x` (40000 × 128), edges `(src, dst)` (640000 of them), four weight
  matrices and five bias vectors,
      out = segment_sum over dst of  logistic (k[dst] + q[src]) * v[src]   +   (x·Ws + bs)   +   b,
  with `k = x·Wk + bk`, `q = x·Wq + bq`, `v = x·Wv + bv`. The reference forms the four products one by one; the kernel
  forms `x·[Wk | Wq | Wv | Ws] + [bk | bq | bv | bs]` in one stage on blocks of 2000 rows and cuts the result into its
  four column blocks, gathers on the host, forms the gated messages in a second stage on blocks of 4000 edges, and
  scatters and adds on the host. Over the extended reals column `128 a + j` of the wide product is column `j` of the
  `a`-th product, and the kernel's one-step `logistic` is the reference's `1 / (1 + exp (−s))`; nothing else differs.

  The frames: each program runs to its end, faults nowhere and leaves its arguments as they were (the kernel's run is
  followed item by item in `RunBits` / `RunIdeal`; the reference is a straight line of host operations).
-/
import proofs.«118037_j13073880449502_1_alg».proof.Defs
import proofs.«118037_j13073880449502_1_alg».proof.Proof.Gen.Kernel
import proofs.«118037_j13073880449502_1_alg».proof.Proof.Gen.KernelIdeal
import proofs.«118037_j13073880449502_1_alg».proof.Proof.Gen.ReferenceIdeal
import proofs.«118037_j13073880449502_1_alg».proof.Proof.Gen.ReferenceIdeal.Run
import proofs.«118037_j13073880449502_1_alg».proof.Proof.Gen.ReferenceIdeal.Read
import proofs.«118037_j13073880449502_1_alg».proof.Proof.Gen.Pre_finite_inputs
import proofs.«118037_j13073880449502_1_alg».proof.Proof.RunBits
import proofs.«118037_j13073880449502_1_alg».proof.Proof.RunIdeal
import proofs.«118037_j13073880449502_1_alg».proof.Proof.Joined
import Idealize.ShloMosaic.Adequacy
import Idealize.ShloMosaic.Init

noncomputable section

namespace Cert.Proof

open Idealize.ShloMosaic Idealize.SL.Sem

theorem frame_kernel : Cert.frame_Kernel := fun m ρ _ => Cert.Kernel.Run.frame (F := Bits) m ρ
theorem frame_kernelIdeal : Cert.frame_KernelIdeal := fun m ρ _ => Cert.KernelIdeal.Run.frame (F := Ideal) m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read over the extended reals. -/
theorem preserves : Cert.preserves_Kernel_KernelIdeal := trivial

/-- Both programs end at the layer's output from the four products `x·W + b` (module `Joined`). -/
theorem algebraic : Cert.algebraic_KernelIdeal_ReferenceIdeal := Cert.Proof.Joined.algebraic

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
